-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x42x16 : Shape := ⟨3, ![131072, 42, 16]⟩
abbrev S8x20 : Shape := ⟨2, ![8, 20]⟩
abbrev S8 : Shape := ⟨1, ![8]⟩
abbrev S16x8 : Shape := ⟨2, ![16, 8]⟩
abbrev S16 : Shape := ⟨1, ![16]⟩
abbrev S_ : Shape := ⟨0, ![]⟩

class Facts : Prop where
  bcast_S_S131072x42x16 : S_.BroadcastsInDim S131072x42x16 (![] : Fin 0 → Fin S131072x42x16.rank)
  reducesTo_S131072x42x16_S_d0_1_2 : S131072x42x16.ReducesTo [0, 1, 2] S_
  h_S_ : 0 < S_.numel
  bcast_S_S8x20 : S_.BroadcastsInDim S8x20 (![] : Fin 0 → Fin S8x20.rank)
  reducesTo_S8x20_S_d0_1 : S8x20.ReducesTo [0, 1] S_
  bcast_S_S8 : S_.BroadcastsInDim S8 (![] : Fin 0 → Fin S8.rank)
  reducesTo_S8_S_d0 : S8.ReducesTo [0] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S131072x42x16 .f32) (main_arg1 : FVec F S8x20 .f32) (main_arg2 : FVec F S8 .f32) (main_arg3 : FVec F S16x8 .f32) (main_arg4 : FVec F S16 .f32) : IVec S_ 1 :=
  let main_v0 : FVec F S131072x42x16 .f32 := Host.absf main_arg0
  let main_cst : FVec F S_ .f32 := constant S_ .f32 0x7F800000#32
  let main_v1 : FVec F S131072x42x16 .f32 := broadcastInDim S131072x42x16 ![] bcast_S_S131072x42x16 main_cst
  let main_v2 : IVec S131072x42x16 1 := cmpf .olt main_v0 main_v1
  let main_c : IVec S_ 1 := constantI S_ 1 1#1
  let main_v3 : IVec S_ 1 := (fun x v => Host.reduce IntOp.andi x v reducesTo_S131072x42x16_S_d0_1_2 h_S_) main_v2 main_c
  let main_v4 : FVec F S8x20 .f32 := Host.absf main_arg1
  let main_cst_0 : FVec F S_ .f32 := constant S_ .f32 0x7F800000#32
  let main_v5 : FVec F S8x20 .f32 := broadcastInDim S8x20 ![] bcast_S_S8x20 main_cst_0
  let main_v6 : IVec S8x20 1 := cmpf .olt main_v4 main_v5
  let main_c_1 : IVec S_ 1 := constantI S_ 1 1#1
  let main_v7 : IVec S_ 1 := (fun x v => Host.reduce IntOp.andi x v reducesTo_S8x20_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_v13 main_v16
-- ==== Kernel.lean ====
abbrev S131072x42x16 : Shape := ⟨3, ![131072, 42, 16]⟩
abbrev S8x20 : Shape := ⟨2, ![8, 20]⟩
abbrev S8 : Shape := ⟨1, ![8]⟩
abbrev S16x8 : Shape := ⟨2, ![16, 8]⟩
abbrev S16 : Shape := ⟨1, ![16]⟩
abbrev S131072x672 : Shape := ⟨2, ![131072, 672]⟩
abbrev S2048x672 : Shape := ⟨2, ![2048, 672]⟩
abbrev S2048x20 : Shape := ⟨2, ![2048, 20]⟩
abbrev S2048x16 : Shape := ⟨2, ![2048, 16]⟩
abbrev S2048 : Shape := ⟨1, ![2048]⟩
abbrev S2048x1 : Shape := ⟨2, ![2048, 1]⟩
abbrev S20x8 : Shape := ⟨2, ![20, 8]⟩
abbrev S2048x8 : Shape := ⟨2, ![2048, 8]⟩
abbrev S1x8 : Shape := ⟨2, ![1, 8]⟩
abbrev S8x16 : Shape := ⟨2, ![8, 16]⟩
abbrev S1x16 : Shape := ⟨2, ![1, 16]⟩

abbrev nBuf : Space → Nat
  | .hbm => 8
  | .vmem => 9
  | .smem => 0
  | _ => 0

abbrev bufTy : (tb : Table) → Fin (tcTables nBuf tb) → BufTy
  | .hbm, ⟨0, _⟩ => ⟨S131072x42x16, .f32⟩
  | .hbm, ⟨1, _⟩ => ⟨S8x20, .f32⟩
  | .hbm, ⟨2, _⟩ => ⟨S8, .f32⟩
  | .hbm, ⟨3, _⟩ => ⟨S16x8, .f32⟩
  | .hbm, ⟨4, _⟩ => ⟨S16, .f32⟩
  | .hbm, ⟨5, _⟩ => ⟨S131072x672, .f32⟩
  | .hbm, ⟨6, _⟩ => ⟨S131072x672, .f32⟩
  | .hbm, ⟨7, _⟩ => ⟨S131072x42x16, .f32⟩
  | .local _ .vmem, ⟨0, _⟩ => ⟨S2048x672, .f32⟩
  | .local _ .vmem, ⟨1, _⟩ => ⟨S2048x672, .f32⟩
  | .local _ .vmem, ⟨2, _⟩ => ⟨S8x20, .f32⟩
  | .local _ .vmem, ⟨3, _⟩ => ⟨S8, .f32⟩
  | .local _ .vmem, ⟨4, _⟩ => ⟨S16x8, .f32⟩
  | .local _ .vmem, ⟨5, _⟩ => ⟨S16, .f32⟩
  | .local _ .vmem, ⟨6, _⟩ => ⟨S2048x672, .f32⟩
  | .local _ .vmem, ⟨7, _⟩ => ⟨S2048x672, .f32⟩
  | .local _ .vmem, ⟨8, _⟩ => ⟨S2048x20, .f32⟩
  | _, _ => ⟨S131072x42x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S131072x42x16_S131072x672 : S131072x42x16.ShapeCasts S131072x672
  inb_S2048x672_S2048x16_0_144 : ∀ a, (![0, 144] : Fin 2 → Nat) a + S2048x16.size a ≤ S2048x672.size a
  h_S2048x16 : 0 < S2048x16.numel
  shapeCasts_S2048x16_S2048x16 : S2048x16.ShapeCasts S2048x16
  inb_S2048x672_S2048x16_0_480 : ∀ a, (![0, 480] : Fin 2 → Nat) a + S2048x16.size a ≤ S2048x672.size a
  reduces_S2048x16_S2048 : S2048x16.Reduces [1] S2048
  shapeCasts_S2048_S2048x1 : S2048.ShapeCasts S2048x1
  inb_S2048x20_S2048x1_0_0 : ∀ a, (![0, 0] : Fin 2 → Nat) a + S2048x1.size a ≤ S2048x20.size a
  h_S2048x1 : 0 < S2048x1.numel
  shapeCasts_S2048x1_S2048x1 : S2048x1.ShapeCasts S2048x1
  inb_S2048x672_S2048x16_0_64 : ∀ a, (![0, 64] : Fin 2 → Nat) a + S2048x16.size a ≤ S2048x672.size a
  inb_S2048x672_S2048x16_0_400 : ∀ a, (![0, 400] : Fin 2 → Nat) a + S2048x16.size a ≤ S2048x672.size a
  inb_S2048x20_S2048x1_0_1 : ∀ a, (![0, 1] : Fin 2 → Nat) a + S2048x1.size a ≤ S2048x20.size a
  inb_S2048x672_S2048x16_0_128 : ∀ a, (![0, 128] : Fin 2 → Nat) a + S2048x16.size a ≤ S2048x672.size a
  inb_S2048x672_S2048x16_0_464 : ∀ a, (![0, 464] : Fin 2 → Nat) a + S2048x16.size a ≤ S2048x672.size a
  inb_S2048x20_S2048x1_0_2 : ∀ a, (![0, 2] : Fin 2 → Nat) a + S2048x1.size a ≤ S2048x20.size a
  inb_S2048x672_S2048x16_0_192 : ∀ a, (![0, 192] : Fin 2 → Nat) a + S2048x16.size a ≤ S2048x672.size a
  inb_S2048x672_S2048x16_0_528 : ∀ a, (![0, 528] : Fin 2 → Nat) a + S2048x16.size a ≤ S2048x672.size a
  inb_S2048x20_S2048x1_0_3 : ∀ a, (![0, 3] : Fin 2 → Nat) a + S2048x1.size a ≤ S2048x20.size a
  inb_S2048x672_S2048x16_0_256 : ∀ a, (![0, 256] : Fin 2 → Nat) a + S2048x16.size a ≤ S2048x672.size a
  inb_S2048x672_S2048x16_0_592 : ∀ a, (![0, 592] : Fin 2 → Nat) a + S2048x16.size a ≤ S2048x672.size a
  inb_S2048x20_S2048x1_0_4 : ∀ a, (![0, 4] : Fin 2 → Nat) a + S2048x1.size a ≤ S2048x20.size a
  inb_S2048x672_S2048x16_0_320 : ∀ a, (![0, 320] : Fin 2 → Nat) a + S2048x16.size a ≤ S2048x672.size a
  inb_S2048x672_S2048x16_0_656 : ∀ a, (![0, 656] : Fin 2 → Nat) a + S2048x16.size a ≤ S2048x672.size a
  inb_S2048x20_S2048x1_0_5 : ∀ a, (![0, 5] : Fin 2 → Nat) a + S2048x1.size a ≤ S2048x20.size a
  inb_S2048x672_S2048x16_0_0 : ∀ a, (![0, 0] : Fin 2 → Nat) a + S2048x16.size a ≤ S2048x672.size a
  inb_S2048x672_S2048x16_0_336 : ∀ a, (![0, 336] : Fin 2 → Nat) a + S2048x16.size a ≤ S2048x672.size a
  inb_S2048x20_S2048x1_0_6 : ∀ a, (![0, 6] : Fin 2 → Nat) a + S2048x1.size a ≤ S2048x20.size a
  inb_S2048x672_S2048x16_0_80 : ∀ a, (![0, 80] : Fin 2 → Nat) a + S2048x16.size a ≤ S2048x672.size a
  inb_S2048x672_S2048x16_0_272 : ∀ a, (![0, 272] : Fin 2 → Nat) a + S2048x16.size a ≤ S2048x672.size a
  inb_S2048x20_S2048x1_0_7 : ∀ a, (![0, 7] : Fin 2 → Nat) a + S2048x1.size a ≤ S2048x20.size a
  inb_S2048x672_S2048x16_0_416 : ∀ a, (![0, 416] : Fin 2 → Nat) a + S2048x16.size a ≤ S2048x672.size a
  inb_S2048x672_S2048x16_0_608 : ∀ a, (![0, 608] : Fin 2 → Nat) a + S2048x16.size a ≤ S2048x672.size a
  inb_S2048x20_S2048x1_0_8 : ∀ a, (![0, 8] : Fin 2 → Nat) a + S2048x1.size a ≤ S2048x20.size a
  inb_S2048x20_S2048x1_0_9 : ∀ a, (![0, 9] : Fin 2 → Nat) a + S2048x1.size a ≤ S2048x20.size a
  inb_S2048x20_S2048x1_0_10 : ∀ a, (![0, 10] : Fin 2 → Nat) a + S2048x1.size a ≤ S2048x20.size a
  inb_S2048x20_S2048x1_0_11 : ∀ a, (![0, 11] : Fin 2 → Nat) a + S2048x1.size a ≤ S2048x20.size a
  inb_S2048x20_S2048x1_0_12 : ∀ a, (![0, 12] : Fin 2 → Nat) a + S2048x1.size a ≤ S2048x20.size a
  inb_S2048x20_S2048x1_0_13 : ∀ a, (![0, 13] : Fin 2 → Nat) a + S2048x1.size a ≤ S2048x20.size a
  inb_S2048x20_S2048x1_0_14 : ∀ a, (![0, 14] : Fin 2 → Nat) a + S2048x1.size a ≤ S2048x20.size a
  inb_S2048x20_S2048x1_0_15 : ∀ a, (![0, 15] : Fin 2 → Nat) a + S2048x1.size a ≤ S2048x20.size a
  inb_S2048x20_S2048x1_0_16 : ∀ a, (![0, 16] : Fin 2 → Nat) a + S2048x1.size a ≤ S2048x20.size a
  inb_S2048x20_S2048x1_0_17 : ∀ a, (![0, 17] : Fin 2 → Nat) a + S2048x1.size a ≤ S2048x20.size a
  inb_S2048x20_S2048x1_0_18 : ∀ a, (![0, 18] : Fin 2 → Nat) a + S2048x1.size a ≤ S2048x20.size a
  inb_S2048x20_S2048x1_0_19 : ∀ a, (![0, 19] : Fin 2 → Nat) a + S2048x1.size a ≤ S2048x20.size a
  inb_S2048x20_S2048x20_0_0 : ∀ a, (![0, 0] : Fin 2 → Nat) a + S2048x20.size a ≤ S2048x20.size a
  h_S2048x20 : 0 < S2048x20.numel
  inb_S8x20_S8x20_0_0 : ∀ a, (![0, 0] : Fin 2 → Nat) a + S8x20.size a ≤ S8x20.size a
  h_S8x20 : 0 < S8x20.numel
  inb_S8_S8_0 : ∀ a, (![0] : Fin 1 → Nat) a + S8.size a ≤ S8.size a
  h_S8 : 0 < S8.numel
  inb_S16x8_S16x8_0_0 : ∀ a, (![0, 0] : Fin 2 → Nat) a + S16x8.size a ≤ S16x8.size a
  h_S16x8 : 0 < S16x8.numel
  inb_S16_S16_0 : ∀ a, (![0] : Fin 1 → Nat) a + S16.size a ≤ S16.size a
  h_S16 : 0 < S16.numel
  transposes_S8x20_p1_0_S20x8 : S8x20.Transposes [1, 0] S20x8
  shapeCasts_S8_S1x8 : S8.ShapeCasts S1x8
  broadcasts_S1x8_S2048x8 : S1x8.Broadcasts S2048x8
  transposes_S16x8_p1_0_S8x16 : S16x8.Transposes [1, 0] S8x16
  shapeCasts_S16_S1x16 : S16.ShapeCasts S1x16
  broadcasts_S1x16_S2048x16 : S1x16.Broadcasts S2048x16
  inb_S2048x672_S2048x672_0_0 : ∀ a, (![0, 0] : Fin 2 → Nat) a + S2048x672.size a ≤ S2048x672.size a
  h_S2048x672 : 0 < S2048x672.numel
  shapeCasts_S2048x672_S2048x672 : S2048x672.ShapeCasts S2048x672
  shapeCasts_S131072x672_S131072x42x16 : S131072x672.ShapeCasts S131072x42x16
  dot_S2048x20_S20x8_S2048x8_1_0_0_1_n_n_wf : DotDims.WF S2048x20 S20x8 S2048x8 [1] [0] [0] [1] [] []
  dot_S2048x8_S8x16_S2048x16_1_0_0_1_n_n_wf : DotDims.WF S2048x8 S8x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x672.size a ≤ S131072x672.size a
  hwx0_0 : ∀ i : grid0.Coords, EltTy.bits .f32 = 32 ∨ (Rect.block (s := S131072x672) S2048x672.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x20.size a ≤ S8x20.size a
  hwx0_1 : ∀ i : grid0.Coords, EltTy.bits .f32 = 32 ∨ (Rect.block (s := S8x20) S8x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x672.size a ≤ S131072x672.size a
  hwx0_5 : ∀ i : grid0.Coords, EltTy.bits .f32 = 32 ∨ (Rect.block (s := S131072x672) S2048x672.size (cc0_transform_5 i) (hinb0_5 i)).WholeWords (EltTy.packing .f32)

variable [Facts₀]

def dot_S2048x20_S20x8_S2048x8_1_0_0_1_n_n : DotDims S2048x20 S20x8 S2048x8 where
  lhsContracting := [1]
  rhsContracting := [0]
  lhsNonContracting := [0]
  rhsNonContracting := [1]
  lhsBatch := []
  rhsBatch := []
  wf := dot_S2048x20_S20x8_S2048x8_1_0_0_1_n_n_wf
def dot_S2048x8_S8x16_S2048x16_1_0_0_1_n_n : DotDims S2048x8 S8x16 S2048x16 where
  lhsContracting := [1]
  rhsContracting := [0]
  lhsNonContracting := [0]
  rhsNonContracting := [1]
  lhsBatch := []
  rhsBatch := []
  wf := dot_S2048x8_S8x16_S2048x16_1_0_0_1_n_n_wf

abbrev win0_0 : Pipeline.Window sig grid0 :=
  Pipeline.Window.ofSpec (Memref.whole main_v0) S2048x672.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x672.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x42x16 : Shape := ⟨3, ![131072, 42, 16]⟩
abbrev S8x20 : Shape := ⟨2, ![8, 20]⟩
abbrev S8 : Shape := ⟨1, ![8]⟩
abbrev S16x8 : Shape := ⟨2, ![16, 8]⟩
abbrev S16 : Shape := ⟨1, ![16]⟩
abbrev S14 : Shape := ⟨1, ![14]⟩
abbrev S6 : Shape := ⟨1, ![6]⟩
abbrev S10 : Shape := ⟨1, ![10]⟩
abbrev S_ : Shape := ⟨0, ![]⟩
abbrev S14x1 : Shape := ⟨2, ![14, 1]⟩
abbrev S131072x14x16 : Shape := ⟨3, ![131072, 14, 16]⟩
abbrev S131072x14 : Shape := ⟨2, ![131072, 14]⟩
abbrev S6x1 : Shape := ⟨2, ![6, 1]⟩
abbrev S131072x6x16 : Shape := ⟨3, ![131072, 6, 16]⟩
abbrev S131072x6 : Shape := ⟨2, ![131072, 6]⟩
abbrev S131072x20 : Shape := ⟨2, ![131072, 20]⟩
abbrev S20x8 : Shape := ⟨2, ![20, 8]⟩
abbrev S131072x8 : Shape := ⟨2, ![131072, 8]⟩
abbrev S1x8 : Shape := ⟨2, ![1, 8]⟩
abbrev S8x16 : Shape := ⟨2, ![8, 16]⟩
abbrev S131072x16 : Shape := ⟨2, ![131072, 16]⟩
abbrev S1x16 : Shape := ⟨2, ![1, 16]⟩
abbrev S131072x1x16 : Shape := ⟨3, ![131072, 1, 16]⟩
abbrev S10x1 : Shape := ⟨2, ![10, 1]⟩
abbrev S131072x10x16 : Shape := ⟨3, ![131072, 10, 16]⟩

abbrev nBuf : Space → Nat
  | .hbm => 71
  | .vmem => 0
  | .smem => 0
  | _ => 0

abbrev bufTy : (tb : Table) → Fin (tcTables nBuf tb) → BufTy
  | .hbm, ⟨0, _⟩ => ⟨S131072x42x16, .f32⟩
  | .hbm, ⟨1, _⟩ => ⟨S8x20, .f32⟩
  | .hbm, ⟨2, _⟩ => ⟨S8, .f32⟩
  | .hbm, ⟨3, _⟩ => ⟨S16x8, .f32⟩
  | .hbm, ⟨4, _⟩ => ⟨S16, .f32⟩
  | .hbm, ⟨5, _⟩ => ⟨S14, .i32⟩
  | .hbm, ⟨6, _⟩ => ⟨S14, .i1⟩
  | .hbm, ⟨7, _⟩ => ⟨S14, .i32⟩
  | .hbm, ⟨8, _⟩ => ⟨S14, .i1⟩
  | .hbm, ⟨9, _⟩ => ⟨S6, .i32⟩
  | .hbm, ⟨10, _⟩ => ⟨S6, .i1⟩
  | .hbm, ⟨11, _⟩ => ⟨S6, .i32⟩
  | .hbm, ⟨12, _⟩ => ⟨S6, .i1⟩
  | .hbm, ⟨13, _⟩ => ⟨S10, .i32⟩
  | .hbm, ⟨14, _⟩ => ⟨S10, .i1⟩
  | .hbm, ⟨15, _⟩ => ⟨S_, .i32⟩
  | .hbm, ⟨16, _⟩ => ⟨S14, .i32⟩
  | .hbm, ⟨17, _⟩ => ⟨S14, .i32⟩
  | .hbm, ⟨18, _⟩ => ⟨S14, .i32⟩
  | .hbm, ⟨19, _⟩ => ⟨S14x1, .i32⟩
  | .hbm, ⟨20, _⟩ => ⟨S131072x14x16, .f32⟩
  | .hbm, ⟨21, _⟩ => ⟨S_, .i32⟩
  | .hbm, ⟨22, _⟩ => ⟨S14, .i32⟩
  | .hbm, ⟨23, _⟩ => ⟨S14, .i32⟩
  | .hbm, ⟨24, _⟩ => ⟨S14, .i32⟩
  | .hbm, ⟨25, _⟩ => ⟨S14x1, .i32⟩
  | .hbm, ⟨26, _⟩ => ⟨S131072x14x16, .f32⟩
  | .hbm, ⟨27, _⟩ => ⟨S131072x14x16, .f32⟩
  | .hbm, ⟨28, _⟩ => ⟨S131072x14x16, .f32⟩
  | .hbm, ⟨29, _⟩ => ⟨S_, .f32⟩
  | .hbm, ⟨30, _⟩ => ⟨S131072x14, .f32⟩
  | .hbm, ⟨31, _⟩ => ⟨S131072x14, .f32⟩
  | .hbm, ⟨32, _⟩ => ⟨S_, .i32⟩
  | .hbm, ⟨33, _⟩ => ⟨S6, .i32⟩
  | .hbm, ⟨34, _⟩ => ⟨S6, .i32⟩
  | .hbm, ⟨35, _⟩ => ⟨S6, .i32⟩
  | .hbm, ⟨36, _⟩ => ⟨S6x1, .i32⟩
  | .hbm, ⟨37, _⟩ => ⟨S131072x6x16, .f32⟩
  | .hbm, ⟨38, _⟩ => ⟨S_, .i32⟩
  | .hbm, ⟨39, _⟩ => ⟨S6, .i32⟩
  | .hbm, ⟨40, _⟩ => ⟨S6, .i32⟩
  | .hbm, ⟨41, _⟩ => ⟨S6, .i32⟩
  | .hbm, ⟨42, _⟩ => ⟨S6x1, .i32⟩
  | .hbm, ⟨43, _⟩ => ⟨S131072x6x16, .f32⟩
  | .hbm, ⟨44, _⟩ => ⟨S131072x6x16, .f32⟩
  | .hbm, ⟨45, _⟩ => ⟨S131072x6x16, .f32⟩
  | .hbm, ⟨46, _⟩ => ⟨S_, .f32⟩
  | .hbm, ⟨47, _⟩ => ⟨S131072x6, .f32⟩
  | .hbm, ⟨48, _⟩ => ⟨S131072x6, .f32⟩
  | .hbm, ⟨49, _⟩ => ⟨S131072x20, .f32⟩
  | .hbm, ⟨50, _⟩ => ⟨S20x8, .f32⟩
  | .hbm, ⟨51, _⟩ => ⟨S131072x8, .f32⟩
  | .hbm, ⟨52, _⟩ => ⟨S1x8, .f32⟩
  | .hbm, ⟨53, _⟩ => ⟨S131072x8, .f32⟩
  | .hbm, ⟨54, _⟩ => ⟨S131072x8, .f32⟩
  | .hbm, ⟨55, _⟩ => ⟨S_, .f32⟩
  | .hbm, ⟨56, _⟩ => ⟨S131072x8, .f32⟩
  | .hbm, ⟨57, _⟩ => ⟨S131072x8, .f32⟩
  | .hbm, ⟨58, _⟩ => ⟨S8x16, .f32⟩
  | .hbm, ⟨59, _⟩ => ⟨S131072x16, .f32⟩
  | .hbm, ⟨60, _⟩ => ⟨S1x16, .f32⟩
  | .hbm, ⟨61, _⟩ => ⟨S131072x16, .f32⟩
  | .hbm, ⟨62, _⟩ => ⟨S131072x16, .f32⟩
  | .hbm, ⟨63, _⟩ => ⟨S131072x1x16, .f32⟩
  | .hbm, ⟨64, _⟩ => ⟨S_, .i32⟩
  | .hbm, ⟨65, _⟩ => ⟨S10, .i32⟩
  | .hbm, ⟨66, _⟩ => ⟨S10, .i32⟩
  | .hbm, ⟨67, _⟩ => ⟨S10, .i32⟩
  | .hbm, ⟨68, _⟩ => ⟨S10x1, .i32⟩
  | .hbm, ⟨69, _⟩ => ⟨S131072x10x16, .f32⟩
  | .hbm, ⟨70, _⟩ => ⟨S131072x42x16, .f32⟩
  | _, _ => ⟨S131072x42x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_10 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v11 : Ref sig .tc := ⟨.hbm, 31, rfl⟩
abbrev main_c_11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_12 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]

class Facts₀ : Prop where
  bcast_S_S14 : S_.BroadcastsInDim S14 (![] : Fin 0 → Fin S14.rank)
  bcast_S14_S14x1_0 : S14.BroadcastsInDim S14x1 (![0] : Fin 1 → Fin S14x1.rank)
  reducesTo_S131072x14x16_S131072x14_d2 : S131072x14x16.ReducesTo [2] S131072x14
  h_S_ : 0 < S_.numel
  bcast_S_S6 : S_.BroadcastsInDim S6 (![] : Fin 0 → Fin S6.rank)
  bcast_S6_S6x1_0 : S6.BroadcastsInDim S6x1 (![0] : Fin 1 → Fin S6x1.rank)
  reducesTo_S131072x6x16_S131072x6_d2 : S131072x6x16.ReducesTo [2] S131072x6
  concatenates_S131072x14_S131072x6_S131072x20_d1 : Shape.Concatenates [S131072x14, S131072x6] S131072x20 1
  transposes_S8x20_S20x8_1_0 : S8x20.Transposes [1, 0] S20x8
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  transposes_S16x8_S8x16_1_0 : S16x8.Transposes [1, 0] S8x16
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S131072x16_S131072x1x16_0_2 : S131072x16.BroadcastsInDim S131072x1x16 (![0, 2] : Fin 2 → Fin S131072x1x16.rank)
  bcast_S_S10 : S_.BroadcastsInDim S10 (![] : Fin 0 → Fin S10.rank)
  bcast_S10_S10x1_0 : S10.BroadcastsInDim S10x1 (![0] : Fin 1 → Fin S10x1.rank)
  bcast_S131072x1x16_S131072x10x16_0_1_2 : S131072x1x16.BroadcastsInDim S131072x10x16 (![0, 1, 2] : Fin 3 → Fin S131072x10x16.rank)
  gather_S131072x42x16_S14x1_S131072x14x16_02_1_n_n_1_1_131072116_wf : GatherDims.WF S131072x42x16 S14x1 S131072x14x16 [0, 2] [1] [] [1] [] 1 ![131072, 1, 16]
  gather_S131072x42x16_S6x1_S131072x6x16_02_1_n_n_1_1_131072116_wf : GatherDims.WF S131072x42x16 S6x1 S131072x6x16 [0, 2] [1] [] [1] [] 1 ![131072, 1, 16]
  dot_S131072x20_S20x8_S131072x8_1_0_0_1_n_n_wf : DotDims.WF S131072x20 S20x8 S131072x8 [1] [0] [0] [1] [] []
  dot_S131072x8_S8x16_S131072x16_1_0_0_1_n_n_wf : DotDims.WF S131072x8 S8x16 S131072x16 [1] [0] [0] [1] [] []
  scatter_S131072x42x16_S10x1_S131072x10x16_02_1_1_1_wf : ScatterDims.WF S131072x42x16 S10x1 S131072x10x16 [0, 2] [1] [1] 1

variable [Facts₀]

def gather_S131072x42x16_S14x1_S131072x14x16_02_1_n_n_1_1_131072116 : GatherDims S131072x42x16 S14x1 S131072x14x16 where
  offsetDims := [0, 2]
  collapsedSliceDims := [1]
  operandBatchingDims := []
  startIndicesBatchingDims := []
  startIndexMap := [1]
  indexVectorDim := 1
  sliceSizes := ![131072, 1, 16]
  wf := gather_S131072x42x16_S14x1_S131072x14x16_02_1_n_n_1_1_131072116_wf
def gather_S131072x42x16_S6x1_S131072x6x16_02_1_n_n_1_1_131072116 : GatherDims S131072x42x16 S6x1 S131072x6x16 where
  offsetDims := [0, 2]
  collapsedSliceDims := [1]
  operandBatchingDims := []
  startIndicesBatchingDims := []
  startIndexMap := [1]
  indexVectorDim := 1
  sliceSizes := ![131072, 1, 16]
  wf := gather_S131072x42x16_S6x1_S131072x6x16_02_1_n_n_1_1_131072116_wf
def dot_S131072x20_S20x8_S131072x8_1_0_0_1_n_n : DotDims S131072x20 S20x8 S131072x8 where
  lhsContracting := [1]
  rhsContracting := [0]
  lhsNonContracting := [0]
  rhsNonContracting := [1]
  lhsBatch := []
  rhsBatch := []
  wf := dot_S131072x20_S20x8_S131072x8_1_0_0_1_n_n_wf
def dot_S131072x8_S8x16_S131072x16_1_0_0_1_n_n : DotDims S131072x8 S8x16 S131072x16 where
  lhsContracting := [1]
  rhsContracting := [0]
  lhsNonContracting := [0]
  rhsNonContracting := [1]
  lhsBatch := []
  rhsBatch := []
  wf := dot_S131072x8_S8x16_S131072x16_1_0_0_1_n_n_wf
def scatter_S131072x42x16_S10x1_S131072x10x16_02_1_1_1 : ScatterDims S131072x42x16 S10x1 S131072x10x16 where
  updateWindowDims := [0, 2]
  insertedWindowDims := [1]
  scatterDimsToOperandDims := [1]
  indexVectorDim := 1
  wf := scatter_S131072x42x16_S10x1_S131072x10x16_02_1_1_1_wf

class Facts : Prop extends Facts₀ where

variable [Facts]
-- ==== Proof.Spec.lean ====
/-
  The function both programs compute, one batch row at a time.

  A row of the input is 42 joints of 16 features. Twenty fixed pairs of joints (fourteen interaction pairs, then
  six orientation pairs) each give one Euclidean distance: the square root of the sum over the 16 features of the
  squared difference. The 20 distances pass through a dense layer to 8 hidden values, a rectifier, and a dense layer
  to 16 features. Those 16 features are added to each of the ten fingertip joints' features; every other joint is
  left as it was.

  Everything is on the extended reals. The two programs differ only in the order and grouping of finite sums and in
  a zero the host adds in front of a sum, so nothing here needs the inputs to be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The first joint of each of the twenty pairs. -/
def pairI : Fin 20 → Fin 42 := ![9, 4, 8, 12, 16, 20, 0, 5, 26, 0, 21, 5, 26, 9, 5, 17, 17, 26, 38, 38]
/-- The second joint of each of the twenty pairs. -/
def pairJ : Fin 20 → Fin 42 := ![30, 25, 29, 33, 37, 41, 21, 17, 38, 4, 25, 8, 29, 12, 0, 0, 5, 21, 21, 26]
/-- The ten fingertip joints. -/
def tips : Fin 10 → Fin 42 := ![4, 8, 12, 16, 20, 25, 29, 33, 37, 41]

/-- The Euclidean distance of two joints' feature vectors. -/
def dist (a b : Fin 16 → EReal) : EReal := Ideal.sqrt (∑ d : Fin 16, (a d - b d) * (a d - b d))

/-- Hidden value `j`: the rectified first dense layer of the twenty distances `c`. -/
def hidden (c : Fin 20 → EReal) (W1 : (⟨2, ![8, 20]⟩ : Shape).Idx → EReal) (b1 : (⟨1, ![8]⟩ : Shape).Idx → EReal)
    (j : Fin 8) : EReal :=
  max ((∑ k : Fin 20, c k * W1 (ix2 j k)) + b1 (ix1 j)) (Ideal.ofBits .f32 0x00000000#32)

/-- Feature `d` of the second dense layer of the eight hidden values `h`. -/
def second (h : Fin 8 → EReal) (W2 : (⟨2, ![16, 8]⟩ : Shape).Idx → EReal) (b2 : (⟨1, ![16]⟩ : Shape).Idx → EReal)
    (d : Fin 16) : EReal :=
  (∑ j : Fin 8, h j * W2 (ix2 d j)) + b2 (ix1 d)

/-- The 16 features a row contributes to its fingertips. -/
def feat (row : Fin 42 → Fin 16 → EReal) (W1 : (⟨2, ![8, 20]⟩ : Shape).Idx → EReal) (b1 : (⟨1, ![8]⟩ : Shape).Idx → EReal)
    (W2 : (⟨2, ![16, 8]⟩ : Shape).Idx → EReal) (b2 : (⟨1, ![16]⟩ : Shape).Idx → EReal) (d : Fin 16) : EReal :=
  second (fun j => hidden (fun k => dist (row (pairI k)) (row (pairJ k))) W1 b1 j) W2 b2 d

/-- Joint `n`, feature `d` of the result row: a fingertip gains the row's features, any other joint is unchanged. -/
def outRow (row : Fin 42 → Fin 16 → EReal) (W1 : (⟨2, ![8, 20]⟩ : Shape).Idx → EReal) (b1 : (⟨1, ![8]⟩ : Shape).Idx → EReal)
    (W2 : (⟨2, ![16, 8]⟩ : Shape).Idx → EReal) (b2 : (⟨1, ![16]⟩ : Shape).Idx → EReal) (n : Fin 42) (d : Fin 16) : EReal :=
  if ∃ t : Fin 10, tips t = n then row n d + feat row W1 b1 W2 b2 d else row n d

/-- The result at batch row `r`, joint `n`, feature `d`. -/
def outAt (x : (⟨3, ![131072, 42, 16]⟩ : Shape).Idx → EReal) (W1 : (⟨2, ![8, 20]⟩ : Shape).Idx → EReal)
    (b1 : (⟨1, ![8]⟩ : Shape).Idx → EReal) (W2 : (⟨2, ![16, 8]⟩ : Shape).Idx → EReal) (b2 : (⟨1, ![16]⟩ : Shape).Idx → EReal)
    (r : Fin 131072) (n : Fin 42) (d : Fin 16) : EReal :=
  outRow (fun n' d' => x (ix3 r n' d')) W1 b1 W2 b2 n d

/-- The whole result array. -/
def out (x : (⟨3, ![131072, 42, 16]⟩ : Shape).Idx → EReal) (W1 : (⟨2, ![8, 20]⟩ : Shape).Idx → EReal)
    (b1 : (⟨1, ![8]⟩ : Shape).Idx → EReal) (W2 : (⟨2, ![16, 8]⟩ : Shape).Idx → EReal) (b2 : (⟨1, ![16]⟩ : Shape).Idx → EReal) :
    (⟨3, ![131072, 42, 16]⟩ : Shape).Idx → EReal :=
  fun i => outAt x W1 b1 W2 b2 (i 0) (i 1) (i 2)

theorem out_ix3 (x : (⟨3, ![131072, 42, 16]⟩ : Shape).Idx → EReal) (W1 : (⟨2, ![8, 20]⟩ : Shape).Idx → EReal)
    (b1 : (⟨1, ![8]⟩ : Shape).Idx → EReal) (W2 : (⟨2, ![16, 8]⟩ : Shape).Idx → EReal) (b2 : (⟨1, ![16]⟩ : Shape).Idx → EReal)
    (r : Fin 131072) (n : Fin 42) (d : Fin 16) :
    out x W1 b1 W2 b2 (ix3 r n d) = outAt x W1 b1 W2 b2 r n d := rfl

/-- Two rows that agree on every joint the pairs name give the same features. -/
theorem feat_congr (row row' : Fin 42 → Fin 16 → EReal) (W1 : (⟨2, ![8, 20]⟩ : Shape).Idx → EReal)
    (b1 : (⟨1, ![8]⟩ : Shape).Idx → EReal) (W2 : (⟨2, ![16, 8]⟩ : Shape).Idx → EReal) (b2 : (⟨1, ![16]⟩ : Shape).Idx → EReal)
    (h : ∀ n d, row n d = row' n d) (d : Fin 16) : feat row W1 b1 W2 b2 d = feat row' W1 b1 W2 b2 d := by
  have : row = row' := funext fun n => funext fun d => h n d
  rw [this]

end Cert.Spec

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KPay.lean ====
/-
  The kernel body's arithmetic, read at an index on the extended reals.

  A distance column: for two loaded 16-wide slabs `va`, `vb` of a block of 2048 rows, entry `p` of the stored
  column is the square root of the sum over the 16 lanes of the squared difference of row `p` of the slabs: the
  lane reduction into a zero accumulator is the plain finite sum.
  The first dense layer: the 2048 x 20 table of distances times the transposed 8 x 20 weights, plus the bias row.
  The second: the rectified 2048 x 8 hidden values times the transposed 16 x 8 weights, plus the bias row.
-/
import proofs.«139112_j68693706932308_1_alg».proof.Proof.Gen.KernelIdeal.Skeleton
import proofs.«139112_j68693706932308_1_alg».proof.Proof.Spec
import proofs.«139112_j68693706932308_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelSide

open Idealize.ShloMosaic Idealize.ShloMosaic.ValueIdx Cert.KernelIdeal Cert.KernelIdeal.Gen

/-- A vector of 2048 entries recast as a column reads, at row `p`, entry `p`. -/
theorem column_cast (v : S2048.Idx → EReal) (h : S2048.ShapeCasts S2048x1) (p : Fin 2048) :
    shapeCast S2048x1 v h (ix2 p (0 : Fin 1)) = v (ix1 p) :=
  shapeCast_apply v h _ _ (by
    rw [Shape.rowMajor_val_one, Shape.rowMajor_val_two]
    show p.val = p.val * 1 + 0
    omega)

/-- Lane `k` of row `p`, as the lane reduction names it. -/
theorem lift_row (h : S2048x16.Reduces [1] S2048) (p : Fin 2048) (k : Fin 16) :
    h.lift (ix1 p) k = ix2 p k :=
  funext fun a => Fin.ext (by
    match a with
    | ⟨0, _⟩ => rfl
    | ⟨1, _⟩ => rfl)

/-- One distance column at row `p`. -/
theorem pay_dist (va vb : Vec Ideal S2048x16 .f32) (p : Fin 2048) :
    k0_pay6 (F := Ideal) va vb (ix2 p (0 : Fin 1))
      = Cert.Spec.dist (fun d => va (ix2 p d)) (fun d => vb (ix2 p d)) := by
  unfold k0_pay6
  dsimp only
  rw [shapeCast_self]
  show Ideal.sqrt _ = _
  unfold Cert.Spec.dist
  refine congrArg Ideal.sqrt ?_
  refine (column_cast _ _ p).trans ?_
  refine (Ideal.multiReduction_add_single _ _ _ _ _ (ix1 p)).trans ?_
  refine Finset.sum_congr rfl fun (k : Fin 16) _ => ?_
  rw [lift_row reduces_S2048x16_S2048 p k]
  show (shapeCast S2048x16 va _ (ix2 p k) - shapeCast S2048x16 vb _ (ix2 p k)) * (shapeCast S2048x16 va _ (ix2 p k) - shapeCast S2048x16 vb _ (ix2 p k)) = _
  rw [shapeCast_self, shapeCast_self]

/-- The first dense layer before the rectifier, at row `p` and hidden unit `j`: the row of distances against row `j`
    of the weights (the body transposes the 8 x 20 weights and contracts along their 20), plus bias entry `j`. -/
theorem pay_layer1 (c : Vec Ideal S2048x20 .f32) (w1 : Vec Ideal S8x20 .f32) (b1 : Vec Ideal S8 .f32)
    (p : Fin 2048) (j : Fin 8) :
    k0_pay26 (F := Ideal) c w1 b1 (ix2 p j) = (∑ k : Fin 20, c (ix2 p k) * w1 (ix2 j k)) + b1 (ix1 j) := by
  unfold k0_pay26
  dsimp only
  refine congrArg₂ (· + ·) ?_ ?_
  · refine (Cert.LibDense.matmul_plain (M := 2048) (K := 20) (N := 8) c _ (ix2 p j)).trans ?_
    unfold Cert.LibDense.prod
    refine Finset.sum_congr rfl fun (k : Fin 20) _ => ?_
    refine congrArg (c (ix2 p k) * ·) ?_
    exact transpose_ix2_apply w1 _ k j
  · exact Cert.LibDense.bias_row b1 _ _ (ix2 p j)

/-- The second dense layer at row `p` and feature `d`: the rectified hidden row against row `d` of the 16 x 8
    weights, plus bias entry `d`. -/
theorem pay_layer2 (w2 : Vec Ideal S16x8 .f32) (b2 : Vec Ideal S16 .f32) (pre : FVec Ideal S2048x8 .f32)
    (p : Fin 2048) (d : Fin 16) :
    k0_pay27 (F := Ideal) w2 b2 pre (ix2 p d)
      = (∑ j : Fin 8, max (pre (ix2 p j)) (Ideal.ofBits .f32 0x00000000#32) * w2 (ix2 d j)) + b2 (ix1 d) := by
  unfold k0_pay27
  dsimp only
  refine congrArg₂ (· + ·) ?_ ?_
  · refine (Cert.LibDense.matmul_plain (M := 2048) (K := 8) (N := 16) _ _ (ix2 p d)).trans ?_
    unfold Cert.LibDense.prod
    refine Finset.sum_congr rfl fun (j : Fin 8) _ => ?_
    refine congrArg₂ (· * ·) rfl ?_
    exact transpose_ix2_apply w2 _ j d
  · exact Cert.LibDense.bias_row b2 _ _ (ix2 p d)

end Cert.KernelSide

end
-- ==== Proof.KTable.lean ====
/-
  One grid point's block of the result, as a function of that point's input blocks.

  The kernel works on the input with its last two axes flattened: joint `n`, feature `d` of a row sits in column
  `16 n + d` of a row of 672. A block is 2048 consecutive rows. Row `p` of the block, read back as 42 joints of 16
  features, goes through the row function of the specification; column `q` of the result is joint `q / 16`,
  feature `q % 16`.
-/
import proofs.«139112_j68693706932308_1_alg».proof.Proof.Spec

noncomputable section

namespace Cert.KernelSide

open Idealize.ShloMosaic Idealize.ShloMosaic.ValueIdx

/-- Row `p` of a table with 672 columns, read as 42 joints of 16 features. -/
def rowOf {R : ℕ} (x : (⟨2, ![R, 672]⟩ : Shape).Idx → EReal) (p : Fin R) : Fin 42 → Fin 16 → EReal :=
  fun n d => x (ix2 p ⟨16 * n.val + d.val, by have := n.isLt; have := d.isLt; omega⟩)

/-- The result table with 672 columns, from the input table and the four parameter arrays. -/
def tableOut {R : ℕ} (x : (⟨2, ![R, 672]⟩ : Shape).Idx → EReal) (W1 : (⟨2, ![8, 20]⟩ : Shape).Idx → EReal)
    (b1 : (⟨1, ![8]⟩ : Shape).Idx → EReal) (W2 : (⟨2, ![16, 8]⟩ : Shape).Idx → EReal) (b2 : (⟨1, ![16]⟩ : Shape).Idx → EReal) :
    (⟨2, ![R, 672]⟩ : Shape).Idx → EReal :=
  fun y => Cert.Spec.outRow (rowOf x (y 0)) W1 b1 W2 b2
    ⟨(y 1).val / 16, by have : (y 1).val < 672 := (y 1).isLt; omega⟩ ⟨(y 1).val % 16, Nat.mod_lt _ (by decide)⟩

theorem tableOut_ix2 {R : ℕ} (x : (⟨2, ![R, 672]⟩ : Shape).Idx → EReal) (W1 : (⟨2, ![8, 20]⟩ : Shape).Idx → EReal)
    (b1 : (⟨1, ![8]⟩ : Shape).Idx → EReal) (W2 : (⟨2, ![16, 8]⟩ : Shape).Idx → EReal) (b2 : (⟨1, ![16]⟩ : Shape).Idx → EReal)
    (p : Fin R) (q : Fin 672) :
    tableOut x W1 b1 W2 b2 (ix2 p q)
      = Cert.Spec.outRow (rowOf x p) W1 b1 W2 b2 ⟨q.val / 16, by have := q.isLt; omega⟩ ⟨q.val % 16, Nat.mod_lt _ (by decide)⟩ := rfl

end Cert.KernelSide

end
-- ==== Proof.LibCanonUnit.lean ====
/-
  What a list of stores leaves, read one store at a time, newest first.

  The contents a list of unmasked stores leaves in a buffer depend on the pieces alone: at each index the payload of
  the newest piece whose rectangle holds the index. For a unit-stride rectangle at offsets `off` with extents `size`
  an index `y` lies in the rectangle exactly when `off a ≤ y a < off a + size a` on every axis, and its position
  inside is `y - off`. So under the newest piece the contents are that piece's payload at `y - off`, and off it (on
  some axis the coordinate misses the span) they are what the older pieces left.
-/
import Idealize.ShloMosaic.Lib.Pipeline.FrameBody

noncomputable section

namespace Cert.LibCanonUnit

open Idealize.ShloMosaic

variable {s : Shape} {e : EltTy} {Val : EltTy → Type} [∀ e, Nonempty (Val e)]

/-- An index at position `x` of the newest piece's unit-stride rectangle holds that piece's payload at `x`. -/
theorem canon_cons_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` holds what the older pieces left. -/
theorem canon_cons_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- Where a load through a unit-stride rectangle reads: position `x` inside the rectangle is index `off + x`. -/
theorem unit_idx_eq {off size : Fin s.rank → ℕ} (inb : ∀ a, off a + size a ≤ s.size a)
    (x : (Rect.unit off size inb).shape.Idx) (y : s.Idx) (hx : ∀ a, (y a).val = off a + (x a).val) :
    (Rect.unit off size inb).toLoadRect.idx x = y :=
  funext fun a => Fin.ext (by
    show off a + 1 * (x a).val = (y a).val
    rw [hx a, Nat.one_mul])

end Cert.LibCanonUnit

end
-- ==== Proof.KScratch.lean ====
/-
  The scratch table of distances, read back.

  The body writes the 2048 x 20 scratch one column at a time: column `k` holds, for every row of the block, the
  distance of the two joints pair `k` names, computed from the two 16-wide slabs of the input block at columns
  `16 i` and `16 j`. The twenty columns tile the scratch, and each is the matching column of one function of
  (row, pair); so the table read back whole is that function.
-/
import proofs.«139112_j68693706932308_1_alg».proof.Proof.Gen.KernelIdeal.Frame
import proofs.«139112_j68693706932308_1_alg».proof.Proof.KPay
import proofs.«139112_j68693706932308_1_alg».proof.Proof.KTable
import proofs.«139112_j68693706932308_1_alg».proof.Proof.LibCanonUnit

set_option maxRecDepth 16384

noncomputable section

namespace Cert.KernelSide

open Idealize.ShloMosaic Idealize.ShloMosaic.ValueIdx Idealize.ShloMosaic.Tactic Cert.KernelIdeal Cert.KernelIdeal.Gen

/-- A load of the 16-wide slab at column `o` of the input block's staging buffer reads, at (row `p`, lane `d`),
    the block at (`p`, `o + d`). -/
theorem load_slab (arg1 : Memref sig .tc .vmem S2048x672 .f32) (harg1 : arg1.IsWhole) (x0 : Vec Ideal S2048x672 .f32)
    (o : ℕ) (ho : o + 16 ≤ 672) (inb : ∀ a, (![0, o] : Fin 2 → ℕ) a + S2048x16.size a ≤ S2048x672.size a)
    (p : Fin 2048) (d : Fin 16) :
    View.readAt (Elt Ideal) arg1.view (Rect.unit (s := S2048x672) ![0, o] S2048x16.size inb).toLoadRect (harg1.unread x0) (ix2 p d)
      = x0 (ix2 p ⟨o + d.val, by have := d.isLt; omega⟩) := by
  rw [View.readAt_eq_ld, harg1.read_unread]
  show x0 _ = x0 _
  refine congrArg x0 (funext fun a => Fin.ext ?_)
  match a with
  | ⟨0, _⟩ => show 0 + 1 * p.val = p.val; omega
  | ⟨1, _⟩ => show o + 1 * d.val = o + d.val; omega

/-- The distance of pair `k` on row `p` of a block. -/
def distAt (x0 : S2048x672.Idx → EReal) (p : Fin 2048) (k : Fin 20) : EReal :=
  Cert.Spec.dist (rowOf x0 p (Cert.Spec.pairI k)) (rowOf x0 p (Cert.Spec.pairJ k))

/-- The table of distances of a block, as a function of the scratch index. -/
def distTable (x0 : S2048x672.Idx → EReal) : S2048x20.Idx → EReal := fun y => distAt x0 (y 0) (y 1)

/-- The column stored for pair `k` is column `k` of the table of distances. -/
theorem column_ok (arg1 : Memref sig .tc .vmem S2048x672 .f32) (harg1 : arg1.IsWhole) (x0 : Vec Ideal S2048x672 .f32)
    (k : Fin 20) (oI oJ : ℕ) (hI : oI = 16 * (Cert.Spec.pairI k).val) (hJ : oJ = 16 * (Cert.Spec.pairJ k).val)
    (inbI : ∀ a, (![0, oI] : Fin 2 → ℕ) a + S2048x16.size a ≤ S2048x672.size a)
    (inbJ : ∀ a, (![0, oJ] : Fin 2 → ℕ) a + S2048x16.size a ≤ S2048x672.size a)
    (inbK : ∀ a, (![0, k.val] : Fin 2 → ℕ) a + S2048x1.size a ≤ S2048x20.size a)
    (x : (Rect.unit (s := S2048x20) ![0, k.val] S2048x1.size inbK).shape.Idx) :
    k0_pay6 (F := Ideal)
        (View.readAt (Elt Ideal) arg1.view (Rect.unit (s := S2048x672) ![0, oI] S2048x16.size inbI).toLoadRect (harg1.unread x0))
        (View.readAt (Elt Ideal) arg1.view (Rect.unit (s := S2048x672) ![0, oJ] S2048x16.size inbJ).toLoadRect (harg1.unread x0)) x
      = distTable x0 ((Rect.unit (s := S2048x20) ![0, k.val] S2048x1.size inbK).emb x) := by
  have hiI : (Cert.Spec.pairI k).val < 42 := (Cert.Spec.pairI k).isLt
  have hiJ : (Cert.Spec.pairJ k).val < 42 := (Cert.Spec.pairJ k).isLt
  obtain ⟨p, rfl⟩ : ∃ p : Fin 2048, x = ix2 p (0 : Fin 1) :=
    ⟨x 0, funext fun a => by
      match a with
      | ⟨0, _⟩ => rfl
      | ⟨1, h1⟩ => exact Fin.ext (show (x ⟨1, h1⟩).val = 0 from Nat.lt_one_iff.mp (x ⟨1, h1⟩).isLt)⟩
  have hemb : (Rect.unit (s := S2048x20) ![0, k.val] S2048x1.size inbK).emb (ix2 p (0 : Fin 1)) = ix2 p k :=
    funext fun a => Fin.ext (by
      match a with
      | ⟨0, _⟩ => show 0 + 1 * p.val = p.val; omega
      | ⟨1, _⟩ => show k.val + 1 * 0 = k.val; omega)
  rw [hemb, pay_dist]
  show Cert.Spec.dist _ _ = Cert.Spec.dist _ _
  subst hI hJ
  refine congrArg₂ Cert.Spec.dist (funext fun d => ?_) (funext fun d => ?_)
  · exact load_slab arg1 harg1 x0 _ (by omega) inbI p d
  · exact load_slab arg1 harg1 x0 _ (by omega) inbJ p d

/-- The scratch read back whole, at (row `p`, pair `k`): the distance of pair `k` on row `p`. -/
theorem scratch_read (c : Dev nD) (arg1 : Memref sig .tc .vmem S2048x672 .f32) (harg1 : arg1.IsWhole)
    (arg7 : Memref sig .tc .vmem S2048x20 .f32) (x0 : Vec Ideal S2048x672 .f32) (p : Fin 2048) (k : Fin 20) :
    kernelRun0_A.sl.v240 (F := Ideal) c arg1 harg1 arg7 x0 (ix2 p k) = distAt x0 p k := by
  unfold kernelRun0_A.sl.v240
  rw [View.readCov_eq_canon']
  show View.canon _ ((Rect.unit (s := S2048x20) ![0, 0] S2048x20.size inb_S2048x20_S2048x20_0_0).toLoadRect.idx (ix2 p k)) = _
  rw [Cert.LibCanonUnit.unit_idx_eq inb_S2048x20_S2048x20_0_0 (ix2 p k) (ix2 p k) (fun a => by
    match a with
    | ⟨0, _⟩ => show p.val = 0 + p.val; omega
    | ⟨1, _⟩ => show k.val = 0 + k.val; omega)]
  refine View.canon_apply_of_pieces (Val := Elt Ideal) (e := .f32) (S := S2048x20) (distTable x0) _ ?_ (ix2 p k) ?_
  · unfold kernelRun0_A.sl.HS0_20 kernelRun0_A.sl.r kernelRun0_A.sl.r_1 kernelRun0_A.sl.r_2 kernelRun0_A.sl.r_3
      kernelRun0_A.sl.r_4 kernelRun0_A.sl.r_5
    intro q hq
    simp only [List.mem_cons, List.mem_nil_iff, or_false] at hq
    rcases hq with rfl | rfl | rfl | rfl | rfl | rfl | rfl | rfl | rfl | rfl | rfl | rfl | rfl | rfl | rfl | rfl | rfl | rfl | rfl | rfl
    · exact column_ok arg1 harg1 x0 19 608 416 rfl rfl inb_S2048x672_S2048x16_0_608 inb_S2048x672_S2048x16_0_416 inb_S2048x20_S2048x1_0_19
    · exact column_ok arg1 harg1 x0 18 608 336 rfl rfl inb_S2048x672_S2048x16_0_608 inb_S2048x672_S2048x16_0_336 inb_S2048x20_S2048x1_0_18
    · exact column_ok arg1 harg1 x0 17 416 336 rfl rfl inb_S2048x672_S2048x16_0_416 inb_S2048x672_S2048x16_0_336 inb_S2048x20_S2048x1_0_17
    · exact column_ok arg1 harg1 x0 16 272 80 rfl rfl inb_S2048x672_S2048x16_0_272 inb_S2048x672_S2048x16_0_80 inb_S2048x20_S2048x1_0_16
    · exact column_ok arg1 harg1 x0 15 272 0 rfl rfl inb_S2048x672_S2048x16_0_272 inb_S2048x672_S2048x16_0_0 inb_S2048x20_S2048x1_0_15
    · exact column_ok arg1 harg1 x0 14 80 0 rfl rfl inb_S2048x672_S2048x16_0_80 inb_S2048x672_S2048x16_0_0 inb_S2048x20_S2048x1_0_14
    · exact column_ok arg1 harg1 x0 13 144 192 rfl rfl inb_S2048x672_S2048x16_0_144 inb_S2048x672_S2048x16_0_192 inb_S2048x20_S2048x1_0_13
    · exact column_ok arg1 harg1 x0 12 416 464 rfl rfl inb_S2048x672_S2048x16_0_416 inb_S2048x672_S2048x16_0_464 inb_S2048x20_S2048x1_0_12
    · exact column_ok arg1 harg1 x0 11 80 128 rfl rfl inb_S2048x672_S2048x16_0_80 inb_S2048x672_S2048x16_0_128 inb_S2048x20_S2048x1_0_11
    · exact column_ok arg1 harg1 x0 10 336 400 rfl rfl inb_S2048x672_S2048x16_0_336 inb_S2048x672_S2048x16_0_400 inb_S2048x20_S2048x1_0_10
    · exact column_ok arg1 harg1 x0 9 0 64 rfl rfl inb_S2048x672_S2048x16_0_0 inb_S2048x672_S2048x16_0_64 inb_S2048x20_S2048x1_0_9
    · exact column_ok arg1 harg1 x0 8 416 608 rfl rfl inb_S2048x672_S2048x16_0_416 inb_S2048x672_S2048x16_0_608 inb_S2048x20_S2048x1_0_8
    · exact column_ok arg1 harg1 x0 7 80 272 rfl rfl inb_S2048x672_S2048x16_0_80 inb_S2048x672_S2048x16_0_272 inb_S2048x20_S2048x1_0_7
    · exact column_ok arg1 harg1 x0 6 0 336 rfl rfl inb_S2048x672_S2048x16_0_0 inb_S2048x672_S2048x16_0_336 inb_S2048x20_S2048x1_0_6
    · exact column_ok arg1 harg1 x0 5 320 656 rfl rfl inb_S2048x672_S2048x16_0_320 inb_S2048x672_S2048x16_0_656 inb_S2048x20_S2048x1_0_5
    · exact column_ok arg1 harg1 x0 4 256 592 rfl rfl inb_S2048x672_S2048x16_0_256 inb_S2048x672_S2048x16_0_592 inb_S2048x20_S2048x1_0_4
    · exact column_ok arg1 harg1 x0 3 192 528 rfl rfl inb_S2048x672_S2048x16_0_192 inb_S2048x672_S2048x16_0_528 inb_S2048x20_S2048x1_0_3
    · exact column_ok arg1 harg1 x0 2 128 464 rfl rfl inb_S2048x672_S2048x16_0_128 inb_S2048x672_S2048x16_0_464 inb_S2048x20_S2048x1_0_2
    · exact column_ok arg1 harg1 x0 1 64 400 rfl rfl inb_S2048x672_S2048x16_0_64 inb_S2048x672_S2048x16_0_400 inb_S2048x20_S2048x1_0_1
    · exact column_ok arg1 harg1 x0 0 144 480 rfl rfl inb_S2048x672_S2048x16_0_144 inb_S2048x672_S2048x16_0_480 inb_S2048x20_S2048x1_0_0
  · exact View.cover_of_tiledL _ ![2048, 1] (by sl_kernel_rfl) _

end Cert.KernelSide

end
-- ==== Proof.KBlock.lean ====
/-
  The output block the body leaves, read back.

  The body first copies the whole input block, then, for each of the ten fingertip joints, loads the 16 columns of
  that joint back from the output, adds the row's 16 features and stores the sum through the same 16 columns. What
  a list of stores leaves is, at each index, the newest store that holds it. The ten column ranges are disjoint, so
  column `q` of row `p` ends at the input entry plus feature `q % 16` when joint `q / 16` is a fingertip, and at the
  input entry otherwise.
-/
import proofs.«139112_j68693706932308_1_alg».proof.Proof.Gen.KernelIdeal.Frame
import proofs.«139112_j68693706932308_1_alg».proof.Proof.KPay
import proofs.«139112_j68693706932308_1_alg».proof.Proof.KTable
import proofs.«139112_j68693706932308_1_alg».proof.Proof.KScratch
import proofs.«139112_j68693706932308_1_alg».proof.Proof.LibCanonUnit

set_option maxRecDepth 16384

noncomputable section

namespace Cert.KernelSide

open Idealize.ShloMosaic Idealize.ShloMosaic.ValueIdx Idealize.ShloMosaic.Tactic Cert.KernelIdeal Cert.KernelIdeal.Gen

/-- A load of a whole staging buffer reads its contents. -/
theorem load_whole {S : Shape} (arg : Memref sig .tc .vmem S .f32) (h : arg.IsWhole) (x : Vec Ideal S .f32)
    {off : Fin S.rank → ℕ} (hz : off = fun _ => 0) (inb : ∀ a, off a + S.size a ≤ S.size a) :
    View.readAt (Elt Ideal) arg.view (Rect.unit (s := S) off S.size inb).toLoadRect (h.unread x) = x := by
  rw [View.readAt_eq_ld, h.read_unread, View.ld_unit_zero hz]

theorem zero2 : (![0, 0] : Fin 2 → ℕ) = fun _ => 0 := funext fun a => by
  match a with
  | ⟨0, _⟩ => rfl
  | ⟨1, _⟩ => rfl

theorem zero1 : (![0] : Fin 1 → ℕ) = fun _ => 0 := funext fun a => by
  match a with
  | ⟨0, _⟩ => rfl

/-- The 16 features the body adds, at row `p`: the specification's features of that row of the block. -/
theorem feat_read (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32)
    (p : Fin 2048) (d : Fin 16) :
    (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) (ix2 p d) = Cert.Spec.feat (rowOf x0 p) x1 x2 x3 x4 d := by
  rw [pay_layer2]
  unfold kernelRun0_A.sl.r_6 kernelRun0_A.sl.r_7 kernelRun0_A.sl.r_8
  rw [load_whole arg4 harg4 x3 zero2, load_whole arg5 harg5 x4 zero1]
  unfold Cert.Spec.feat Cert.Spec.second Cert.Spec.hidden
  refine congrArg₂ (· + ·) (Finset.sum_congr rfl fun (j : Fin 8) _ => congrArg₂ (· * ·) (congrArg₂ max ?_ rfl) rfl) rfl
  rw [pay_layer1, load_whole arg2 harg2 x1 zero2, load_whole arg3 harg3 x2 zero1]
  refine congrArg₂ (· + ·) (Finset.sum_congr rfl fun (k : Fin 20) _ => congrArg₂ (· * ·) ?_ rfl) rfl
  exact scratch_read c arg1 harg1 arg7 x0 p k

/-- One more store on top of a list of stores: through the 16 columns from `o`, of what a load through the same
    columns reads of the older stores, plus `E`. Inside the columns the older contents gain `E`; outside nothing changes. -/
theorem canon_add_slab (v : View sig .tc .vmem S2048x672 .f32) (L : List (View.Piece (Elt Ideal) S2048x672 .f32)) (o : ℕ) (ho : o + 16 ≤ 672)
    (inb : ∀ a, (![0, o] : Fin 2 → ℕ) a + (![2048, 16] : Fin 2 → ℕ) a ≤ S2048x672.size a)
    (E : FVec Ideal S2048x16 .f32) (hc : S2048x16.ShapeCasts S2048x16) (p : Fin 2048) (q : Fin 672) :
    View.canon ((⟨Rect.unit (s := S2048x672) ![0, o] ![2048, 16] inb,
        addf (shapeCast S2048x16 (v.readCov L (Rect.unit (s := S2048x672) ![0, o] ![2048, 16] inb).toLoadRect) hc) E⟩ :
          View.Piece (Elt Ideal) S2048x672 .f32) :: L) (ix2 p q)
      = if h : o ≤ q.val ∧ q.val < o + 16 then View.canon L (ix2 p q) + E (ix2 p ⟨q.val - o, by omega⟩)
        else View.canon L (ix2 p q) := by
  by_cases h : o ≤ q.val ∧ q.val < o + 16
  · rw [dif_pos h]
    have hx : ∀ a : Fin 2, ((ix2 p q : S2048x672.Idx) a).val = (![0, o] : Fin 2 → ℕ) a + ((ix2 p (⟨q.val - o, by omega⟩ : Fin 16) : S2048x16.Idx) a).val := fun a => by
      match a with
      | ⟨0, _⟩ => show p.val = 0 + p.val; omega
      | ⟨1, _⟩ => show q.val = o + (q.val - o); omega
    refine (Cert.LibCanonUnit.canon_cons_unit_of_mem (s := S2048x672) (off := ![0, o]) (size := ![2048, 16]) inb _ L (ix2 p q) (ix2 p (⟨q.val - o, by omega⟩ : Fin 16)) hx).trans ?_
    show shapeCast S2048x16 _ hc (ix2 p _) + E _ = _
    rw [shapeCast_self, View.readCov_eq_canon']
    show View.canon L ((Rect.unit (s := S2048x672) ![0, o] ![2048, 16] inb).toLoadRect.idx (ix2 p _)) + _ = _
    rw [Cert.LibCanonUnit.unit_idx_eq (s := S2048x672) (off := ![0, o]) (size := ![2048, 16]) inb (ix2 p (⟨q.val - o, by omega⟩ : Fin 16)) (ix2 p q) hx]
  · rw [dif_neg h]
    refine Cert.LibCanonUnit.canon_cons_unit_of_not_mem (s := S2048x672) (off := ![0, o]) (size := ![2048, 16]) inb _ L (ix2 p q) (⟨1, by decide⟩ : Fin 2) ?_
    show q.val < o ∨ o + 16 ≤ q.val
    omega

/-- Column `q` of row `p` once the joints listed in `T` have received `E`. -/
def lvl (T : List ℕ) (x0 : S2048x672.Idx → EReal) (E : S2048x16.Idx → EReal) (p : Fin 2048) (q : Fin 672) : EReal :=
  if q.val / 16 ∈ T then x0 (ix2 p q) + E (ix2 p ⟨q.val % 16, Nat.mod_lt _ (by decide)⟩) else x0 (ix2 p q)

/-- Giving one more joint `f`, not yet in `T`, its features. -/
theorem lvl_step (T : List ℕ) (f o : ℕ) (ho : o = 16 * f) (hf : f ∉ T) (x0 : S2048x672.Idx → EReal) (E : S2048x16.Idx → EReal)
    (p : Fin 2048) (q : Fin 672) :
    (if h : o ≤ q.val ∧ q.val < o + 16 then lvl T x0 E p q + E (ix2 p ⟨q.val - o, by omega⟩) else lvl T x0 E p q)
      = lvl (T ++ [f]) x0 E p q := by
  subst ho
  unfold lvl
  by_cases h : 16 * f ≤ q.val ∧ q.val < 16 * f + 16
  · have hq : q.val / 16 = f := by omega
    have hm : q.val - 16 * f = q.val % 16 := by omega
    rw [dif_pos h, if_neg (by rw [hq]; exact hf), if_pos (by rw [hq]; exact List.mem_append_right _ (List.mem_singleton.mpr rfl))]
    exact congrArg (x0 (ix2 p q) + ·) (congrArg E (congrArg (ix2 p) (Fin.ext hm)))
  · have hq : q.val / 16 ≠ f := by omega
    rw [dif_neg h]
    by_cases hT : q.val / 16 ∈ T
    · rw [if_pos hT, if_pos (List.mem_append_left _ hT)]
    · rw [if_neg hT, if_neg (fun hmem => by
        rcases List.mem_append.mp hmem with h1 | h1
        · exact hT h1
        · exact hq (List.mem_singleton.mp h1))]

theorem level_1 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_1 (F := Ideal) c arg1 harg1 x0) (ix2 p q)
      = lvl [] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_1 k0_pay28
  dsimp only
  rw [View.canon_unit_zero zero2, shapeCast_self, load_whole arg1 harg1 x0 zero2]
  unfold lvl
  rw [if_neg List.not_mem_nil]

theorem level_2 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_2 (F := Ideal) c arg1 harg1 arg2 harg2 arg3 harg3 arg4 harg4 arg5 harg5 arg6 arg7 x0 x1 x2 x3 x4) (ix2 p q)
      = lvl [4] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_2 k0_pay29 kernelRun0_A.sl.v260
  dsimp only
  rw [canon_add_slab _ _ 64 (by omega) _ _ _ p q]
  rw [level_1 c arg1 harg1 arg2 harg2 arg3 harg3 arg4 harg4 arg5 harg5 arg6 arg7 x0 x1 x2 x3 x4 p q]
  exact lvl_step [] 4 64 rfl (by decide) x0 _ p q

theorem level_3 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_3 (F := Ideal) c arg1 harg1 arg2 harg2 arg3 harg3 arg4 harg4 arg5 harg5 arg6 arg7 x0 x1 x2 x3 x4) (ix2 p q)
      = lvl [4, 8] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_3 k0_pay30 kernelRun0_A.sl.v264
  dsimp only
  rw [canon_add_slab _ _ 128 (by omega) _ _ _ p q]
  rw [level_2 c arg1 harg1 arg2 harg2 arg3 harg3 arg4 harg4 arg5 harg5 arg6 arg7 x0 x1 x2 x3 x4 p q]
  exact lvl_step [4] 8 128 rfl (by decide) x0 _ p q

theorem level_4 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_4 (F := Ideal) c arg1 harg1 arg2 harg2 arg3 harg3 arg4 harg4 arg5 harg5 arg6 arg7 x0 x1 x2 x3 x4) (ix2 p q)
      = lvl [4, 8, 12] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_4 k0_pay31 kernelRun0_A.sl.v268
  dsimp only
  rw [canon_add_slab _ _ 192 (by omega) _ _ _ p q]
  rw [level_3 c arg1 harg1 arg2 harg2 arg3 harg3 arg4 harg4 arg5 harg5 arg6 arg7 x0 x1 x2 x3 x4 p q]
  exact lvl_step [4, 8] 12 192 rfl (by decide) x0 _ p q

theorem level_5 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_5 (F := Ideal) c arg1 harg1 arg2 harg2 arg3 harg3 arg4 harg4 arg5 harg5 arg6 arg7 x0 x1 x2 x3 x4) (ix2 p q)
      = lvl [4, 8, 12, 16] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_5 k0_pay32 kernelRun0_A.sl.v272
  dsimp only
  rw [canon_add_slab _ _ 256 (by omega) _ _ _ p q]
  rw [level_4 c arg1 harg1 arg2 harg2 arg3 harg3 arg4 harg4 arg5 harg5 arg6 arg7 x0 x1 x2 x3 x4 p q]
  exact lvl_step [4, 8, 12] 16 256 rfl (by decide) x0 _ p q

theorem level_6 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_6 (F := Ideal) c arg1 harg1 arg2 harg2 arg3 harg3 arg4 harg4 arg5 harg5 arg6 arg7 x0 x1 x2 x3 x4) (ix2 p q)
      = lvl [4, 8, 12, 16, 20] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_6 kernelRun0_A.sl.r_10 k0_pay33 kernelRun0_A.sl.v276
  dsimp only
  rw [canon_add_slab _ _ 320 (by omega) _ _ _ p q]
  rw [level_5 c arg1 harg1 arg2 harg2 arg3 harg3 arg4 harg4 arg5 harg5 arg6 arg7 x0 x1 x2 x3 x4 p q]
  exact lvl_step [4, 8, 12, 16] 20 320 rfl (by decide) x0 _ p q

theorem level_7 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_7 (F := Ideal) c arg1 harg1 arg2 harg2 arg3 harg3 arg4 harg4 arg5 harg5 arg6 arg7 x0 x1 x2 x3 x4) (ix2 p q)
      = lvl [4, 8, 12, 16, 20, 25] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_7 kernelRun0_A.sl.r_9 k0_pay1 kernelRun0_A.sl.v280
  dsimp only
  rw [canon_add_slab _ _ 400 (by omega) _ _ _ p q]
  rw [level_6 c arg1 harg1 arg2 harg2 arg3 harg3 arg4 harg4 arg5 harg5 arg6 arg7 x0 x1 x2 x3 x4 p q]
  exact lvl_step [4, 8, 12, 16, 20] 25 400 rfl (by decide) x0 _ p q

theorem level_8 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_8 (F := Ideal) c arg1 harg1 arg2 harg2 arg3 harg3 arg4 harg4 arg5 harg5 arg6 arg7 x0 x1 x2 x3 x4) (ix2 p q)
      = lvl [4, 8, 12, 16, 20, 25, 29] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_8 kernelRun0_A.sl.r_9 k0_pay2 kernelRun0_A.sl.v284
  dsimp only
  rw [canon_add_slab _ _ 464 (by omega) _ _ _ p q]
  rw [level_7 c arg1 harg1 arg2 harg2 arg3 harg3 arg4 harg4 arg5 harg5 arg6 arg7 x0 x1 x2 x3 x4 p q]
  exact lvl_step [4, 8, 12, 16, 20, 25] 29 464 rfl (by decide) x0 _ p q

theorem level_9 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_9 (F := Ideal) c arg1 harg1 arg2 harg2 arg3 harg3 arg4 harg4 arg5 harg5 arg6 arg7 x0 x1 x2 x3 x4) (ix2 p q)
      = lvl [4, 8, 12, 16, 20, 25, 29, 33] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_9 kernelRun0_A.sl.r_9 k0_pay3 kernelRun0_A.sl.v288
  dsimp only
  rw [canon_add_slab _ _ 528 (by omega) _ _ _ p q]
  rw [level_8 c arg1 harg1 arg2 harg2 arg3 harg3 arg4 harg4 arg5 harg5 arg6 arg7 x0 x1 x2 x3 x4 p q]
  exact lvl_step [4, 8, 12, 16, 20, 25, 29] 33 528 rfl (by decide) x0 _ p q

theorem level_10 (c : Dev nD) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (arg7 : Memref sig .tc .vmem S2048x20 .f32)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A.sl.H5_10 (F := Ideal) c arg1 harg1 arg2 harg2 arg3 harg3 arg4 harg4 arg5 harg5 arg6 arg7 x0 x1 x2 x3 x4) (ix2 p q)
      = lvl [4, 8, 12, 16, 20, 25, 29, 33, 37] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A.sl.H5_10 kernelRun0_A.sl.r_9 k0_pay4 kernelRun0_A.sl.v292
  dsimp only
  rw [canon_add_slab _ _ 592 (by omega) _ _ _ p q]
  rw [level_9 c arg1 harg1 arg2 harg2 arg3 harg3 arg4 harg4 arg5 harg5 arg6 arg7 x0 x1 x2 x3 x4 p q]
  exact lvl_step [4, 8, 12, 16, 20, 25, 29, 33] 37 592 rfl (by decide) x0 _ p q

/-- The whole list of stores the body leaves in the output block: the tenth fingertip's store on top of the rest. -/
theorem level_11 (c : Dev nD) (i : grid0.Coords) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (harg6 : arg6.IsWhole) (arg7 : Memref sig .tc .vmem S2048x20 .f32) (harg7 : arg7.IsWhole)
    (x0 : Vec Ideal S2048x672 .f32) (x1 : Vec Ideal S8x20 .f32) (x2 : Vec Ideal S8 .f32) (x3 : Vec Ideal S16x8 .f32) (x4 : Vec Ideal S16 .f32) (p : Fin 2048) (q : Fin 672) :
    View.canon (kernelRun0_A (F := Ideal) c i arg1 harg1 arg2 harg2 arg3 harg3 arg4 harg4 arg5 harg5 arg6 harg6 arg7 harg7 x0 x1 x2 x3 x4).1 (ix2 p q)
      = lvl [4, 8, 12, 16, 20, 25, 29, 33, 37, 41] x0 (k0_pay27 (F := Ideal) (kernelRun0_A.sl.r_6 c arg4 harg4 x3) (kernelRun0_A.sl.r_7 c arg5 harg5 x4) (kernelRun0_A.sl.r_8 c arg1 harg1 arg2 harg2 arg3 harg3 arg7 x0 x1 x2)) p q := by
  unfold kernelRun0_A
  dsimp only
  unfold kernelRun0_A.sl.r_9 k0_pay5 kernelRun0_A.sl.v296
  dsimp only
  rw [canon_add_slab _ _ 656 (by omega) _ _ _ p q]
  rw [level_10 c arg1 harg1 arg2 harg2 arg3 harg3 arg4 harg4 arg5 harg5 arg6 arg7 x0 x1 x2 x3 x4 p q]
  exact lvl_step [4, 8, 12, 16, 20, 25, 29, 33, 37] 41 656 rfl (by decide) x0 _ p q

/-- A joint is one of the ten fingertips exactly when its number is in the list. -/
theorem tips_iff : ∀ n : Fin 42, (∃ t : Fin 10, Cert.Spec.tips t = n) ↔ n.val ∈ [4, 8, 12, 16, 20, 25, 29, 33, 37, 41] := by decide

/-- THE BLOCK: what the body leaves in the output block is the result table of its input blocks. -/
theorem block_eq (c : Dev nD) (i : grid0.Coords) (arg1 : Memref sig .tc .vmem S2048x672 .f32) (harg1 : arg1.IsWhole) (arg2 : Memref sig .tc .vmem S8x20 .f32) (harg2 : arg2.IsWhole) (arg3 : Memref sig .tc .vmem S8 .f32) (harg3 : arg3.IsWhole) (arg4 : Memref sig .tc .vmem S16x8 .f32) (harg4 : arg4.IsWhole) (arg5 : Memref sig .tc .vmem S16 .f32) (harg5 : arg5.IsWhole) (arg6 : Memref sig .tc .vmem S2048x672 .f32) (harg6 : arg6.IsWhole) (arg7 : Memref sig .tc .vmem S2048x20 .f32) (harg7 : arg7.IsWhole)
    (x0 : Vec Ideal S2048x672 .f32) (x1 : Vec Ideal S8x20 .f32) (x2 : Vec Ideal S8 .f32) (x3 : Vec Ideal S16x8 .f32) (x4 : Vec Ideal S16 .f32) :
    out0_A_5 (F := Ideal) c i arg1 harg1 arg2 harg2 arg3 harg3 arg4 harg4 arg5 harg5 arg6 harg6 arg7 harg7 x0 x1 x2 x3 x4 = tableOut x0 x1 x2 x3 x4 := by
  funext y
  obtain ⟨p, q, rfl⟩ : ∃ (p : Fin 2048) (q : Fin 672), y = ix2 p q := ⟨y 0, y 1, eq_ix2 y⟩
  unfold out0_A_5
  rw [View.read_writes_junk_eq_canon, level_11 c i arg1 harg1 arg2 harg2 arg3 harg3 arg4 harg4 arg5 harg5 arg6 harg6 arg7 harg7 x0 x1 x2 x3 x4 p q, tableOut_ix2]
  unfold lvl Cert.Spec.outRow
  have hrow : rowOf x0 p ⟨q.val / 16, by have := q.isLt; omega⟩ ⟨q.val % 16, Nat.mod_lt _ (by decide)⟩ = x0 (ix2 p q) := by
    unfold rowOf
    exact congrArg x0 (congrArg (ix2 p) (Fin.ext (Nat.div_add_mod q.val 16)))
  rw [hrow, feat_read]
  by_cases h : q.val / 16 ∈ [4, 8, 12, 16, 20, 25, 29, 33, 37, 41]
  · rw [if_pos h, if_pos ((tips_iff ⟨q.val / 16, by have := q.isLt; omega⟩).mpr h)]
  · rw [if_neg h, if_neg (fun h' => h ((tips_iff ⟨q.val / 16, by have := q.isLt; omega⟩).mp h'))]

end Cert.KernelSide

end
-- ==== Proof.KIdx.lean ====
/-
  Where each grid point's blocks sit in the staged arrays.

  The grid has 64 points. At point `t` the input table and the result table are both at block row `t` of 2048 rows
  (one block spans all 672 columns), and each of the four parameter arrays is staged whole, at block 0. So entry
  `(p, q)` of the input block is entry `(2048 t + p, q)` of the input table, and a parameter block is the parameter
  array itself.
-/
import proofs.«139112_j68693706932308_1_alg».proof.Proof.Gen.KernelIdeal.Frame
import proofs.«139112_j68693706932308_1_alg».proof.Proof.KTable
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelSide

open Cert.KernelIdeal Cert.KernelIdeal.Gen Idealize.ShloMosaic.ValueIdx

variable (m : (ℓ : Loc nD τ sig) → Buf (Elt Ideal) ℓ)

/-- The block index of every window at every grid point: the two tables move down one block row per point and stay
    at column block 0; the parameter arrays stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Entry `x` of the input block at point `t` is the entry of the input table `2048 t` rows further down. -/
theorem iblk0_apply (c : Dev nD) (t : Fin cfg0.N) (x : S2048x672.Idx) (k : S131072x672.Idx)
    (hk0 : (k 0).val = 2048 * t.val + (x 0).val) (hk1 : (k 1).val = (x 1).val) :
    (iblk m c 0 t : Vec Ideal S2048x672 .f32) x = (V m c main_v0 : S131072x672.Idx → EReal) k := by
  obtain ⟨e0, e1, -⟩ := idx_facts t
  unfold iblk
  rw [View.read_apply]
  show V m c main_v0 _ = V m c main_v0 k
  refine congrArg (V m c main_v0 : S131072x672.Idx → EReal) (funext fun a => Fin.ext ?_)
  match a with
  | ⟨0, _⟩ => show win0_0.index t 0 * 2048 + 1 * (x 0).val = (k 0).val; rw [e0, hk0]; omega
  | ⟨1, _⟩ => show win0_0.index t 1 * 672 + 1 * (x 1).val = (k 1).val; rw [e1, hk1]; omega

/-- The first dense layer's weights are staged whole. -/
theorem iblk1_eq (c : Dev nD) (t : Fin cfg0.N) : (iblk m c 1 t : Vec Ideal S8x20 .f32) = V m c main_arg1 := by
  obtain ⟨-, -, e0, e1, -⟩ := idx_facts t
  funext x
  unfold iblk
  rw [View.read_apply]
  show V m c main_arg1 _ = V m c main_arg1 x
  refine congrArg (V m c main_arg1 : S8x20.Idx → EReal) (funext fun a => Fin.ext ?_)
  match a with
  | ⟨0, _⟩ => show win0_1.index t 0 * 8 + 1 * (x 0).val = (x 0).val; rw [e0]; omega
  | ⟨1, _⟩ => show win0_1.index t 1 * 20 + 1 * (x 1).val = (x 1).val; rw [e1]; omega

/-- The first dense layer's bias is staged whole. -/
theorem iblk2_eq (c : Dev nD) (t : Fin cfg0.N) : (iblk m c 2 t : Vec Ideal S8 .f32) = V m c main_arg2 := by
  obtain ⟨-, -, -, -, e0, -⟩ := idx_facts t
  funext x
  unfold iblk
  rw [View.read_apply]
  show V m c main_arg2 _ = V m c main_arg2 x
  refine congrArg (V m c main_arg2 : S8.Idx → EReal) (funext fun a => Fin.ext ?_)
  match a with
  | ⟨0, _⟩ => show win0_2.index t 0 * 8 + 1 * (x 0).val = (x 0).val; rw [e0]; omega

/-- The second dense layer's weights are staged whole. -/
theorem iblk3_eq (c : Dev nD) (t : Fin cfg0.N) : (iblk m c 3 t : Vec Ideal S16x8 .f32) = V m c main_arg3 := by
  obtain ⟨-, -, -, -, -, e0, e1, -⟩ := idx_facts t
  funext x
  unfold iblk
  rw [View.read_apply]
  show V m c main_arg3 _ = V m c main_arg3 x
  refine congrArg (V m c main_arg3 : S16x8.Idx → EReal) (funext fun a => Fin.ext ?_)
  match a with
  | ⟨0, _⟩ => show win0_3.index t 0 * 16 + 1 * (x 0).val = (x 0).val; rw [e0]; omega
  | ⟨1, _⟩ => show win0_3.index t 1 * 8 + 1 * (x 1).val = (x 1).val; rw [e1]; omega

/-- The second dense layer's bias is staged whole. -/
theorem iblk4_eq (c : Dev nD) (t : Fin cfg0.N) : (iblk m c 4 t : Vec Ideal S16 .f32) = V m c main_arg4 := by
  obtain ⟨-, -, -, -, -, -, -, e0, -⟩ := idx_facts t
  funext x
  unfold iblk
  rw [View.read_apply]
  show V m c main_arg4 _ = V m c main_arg4 x
  refine congrArg (V m c main_arg4 : S16.Idx → EReal) (funext fun a => Fin.ext ?_)
  match a with
  | ⟨0, _⟩ => show win0_4.index t 0 * 16 + 1 * (x 0).val = (x 0).val; rw [e0]; omega

end Cert.KernelSide

end
-- ==== Proof.KFlush.lean ====
/-
  From one grid point's block to the whole result table.

  The result table is the row function of the specification applied to every row of the staged input table, the
  parameters being the four staged parameter arrays. A row of the result depends on the same row of the input and on
  nothing else, so the block of 2048 result rows that grid point `t` writes back — the row function applied to the
  2048 input rows staged at `t` — is rows `2048 t … 2048 t + 2047` of that table. Row `r` lies in the block of point
  `r / 2048`, so the 64 blocks cover the table and it ends holding exactly this function.
-/
import proofs.«139112_j68693706932308_1_alg».proof.Proof.KIdx

noncomputable section

open Idealize.ShloMosaic Idealize.ShloMosaic.TcCoe Idealize.SL.Sem
open Idealize.ShloMosaic.Pipeline (Dat)

namespace Cert.KernelSide

open Cert.KernelIdeal Cert.KernelIdeal.Gen Idealize.ShloMosaic.ValueIdx

/-- What is assumed of the body: run on any staging buffers at any grid point, it leaves in the result's staging
    buffer the row function applied to its input block, with its four parameter blocks as the parameters. -/
def BlockHyp : Prop :=
  ∀ (c : Dev Cert.KernelIdeal.nD) (i : Cert.KernelIdeal.grid0.Coords) (arg1 : Memref Cert.KernelIdeal.sig .tc .vmem Cert.KernelIdeal.S2048x672 .f32) (harg1 : arg1.IsWhole) (arg2 : Memref _ .tc .vmem Cert.KernelIdeal.S8x20 .f32) (harg2 : arg2.IsWhole) (arg3 : Memref _ .tc .vmem Cert.KernelIdeal.S8 .f32) (harg3 : arg3.IsWhole) (arg4 : Memref _ .tc .vmem Cert.KernelIdeal.S16x8 .f32) (harg4 : arg4.IsWhole) (arg5 : Memref _ .tc .vmem Cert.KernelIdeal.S16 .f32) (harg5 : arg5.IsWhole) (arg6 : Memref _ .tc .vmem Cert.KernelIdeal.S2048x672 .f32) (harg6 : arg6.IsWhole) (arg7 : Memref _ .tc .vmem Cert.KernelIdeal.S2048x20 .f32) (harg7 : arg7.IsWhole)
    (x0 : Vec Ideal Cert.KernelIdeal.S2048x672 .f32) (x1 : Vec Ideal Cert.KernelIdeal.S8x20 .f32) (x2 : Vec Ideal Cert.KernelIdeal.S8 .f32) (x3 : Vec Ideal Cert.KernelIdeal.S16x8 .f32) (x4 : Vec Ideal Cert.KernelIdeal.S16 .f32),
    Cert.KernelIdeal.Gen.out0_A_5 (F := Ideal) c i arg1 harg1 arg2 harg2 arg3 harg3 arg4 harg4 arg5 harg5 arg6 harg6 arg7 harg7 x0 x1 x2 x3 x4 = Cert.KernelSide.tableOut x0 x1 x2 x3 x4

variable (m : (ℓ : Loc nD τ sig) → Buf (Elt Ideal) ℓ)

/-- The result table: the row function applied to every row of the input table as the pipeline finds it. -/
abbrev resultTable (c : Dev nD) : S131072x672.Idx → EReal :=
  tableOut (V m c main_v0) (V m c main_arg1) (V m c main_arg2) (V m c main_arg3) (V m c main_arg4)

/-- A block `x0` holding rows `2048 T … 2048 T + 2047` of a table `X` goes through the row function to the same rows
    of `X`'s result: an entry of the result only looks at its own row. -/
theorem tableOut_of_rows (X : S131072x672.Idx → EReal) (x0 : S2048x672.Idx → EReal)
    (W1 : S8x20.Idx → EReal) (b1 : S8.Idx → EReal) (W2 : S16x8.Idx → EReal) (b2 : S16.Idx → EReal) (T : ℕ)
    (hx : ∀ (x : S2048x672.Idx) (k : S131072x672.Idx), (k 0).val = 2048 * T + (x 0).val → (k 1).val = (x 1).val → x0 x = X k)
    (j : S2048x672.Idx) (i : S131072x672.Idx) (hi0 : (i 0).val = 2048 * T + (j 0).val) (hi1 : (i 1).val = (j 1).val) :
    tableOut x0 W1 b1 W2 b2 j = tableOut X W1 b1 W2 b2 i := by
  obtain ⟨p, q, rfl⟩ : ∃ (p : Fin 2048) (q : Fin 672), j = ix2 p q := ⟨j 0, j 1, eq_ix2 j⟩
  obtain ⟨r, s, rfl⟩ : ∃ (r : Fin 131072) (s : Fin 672), i = ix2 r s := ⟨i 0, i 1, eq_ix2 i⟩
  have hr : r.val = 2048 * T + p.val := hi0
  obtain rfl : s = q := Fin.ext hi1
  rw [tableOut_ix2, tableOut_ix2]
  have hrow : rowOf x0 p = rowOf X r := funext fun n => funext fun d => hx _ _ hr rfl
  rw [hrow]

/-- What grid point `t` writes back is block `t` of the result table. -/
theorem flushed_eq (hblock : BlockHyp) (c : Dev nD) (t : Fin cfg0.N) :
    (dats m 0 c).flushed 5 t = ((cfg0.win 5).blk t).view.read (Elt Ideal) (resultTable m c) := by
  show (cfg0.win 5).cut (grid0.coords t) ((dats m 0 c).after 5 t) = _
  rw [after0_5]
  unfold outsAt0
  rw [hblock, iblk1_eq, iblk2_eq, iblk3_eq, iblk4_eq]
  obtain ⟨-, -, -, -, -, -, -, -, e0, e1⟩ := idx_facts t
  funext j
  show tableOut (iblk m c 0 t) (V m c main_arg1) (V m c main_arg2) (V m c main_arg3) (V m c main_arg4) j
    = resultTable m c (((cfg0.win 5).blk t).view.emb j)
  refine tableOut_of_rows (V m c main_v0) (iblk m c 0 t) (V m c main_arg1) (V m c main_arg2) (V m c main_arg3) (V m c main_arg4) t.val
    (fun x k h0 h1 => iblk0_apply m c t x k h0 h1) j (((cfg0.win 5).blk t).view.emb j) ?_ ?_
  · show win0_5.index t 0 * 2048 + 1 * (j 0).val = 2048 * t.val + (j 0).val
    rw [e0]; omega
  · show win0_5.index t 1 * 672 + 1 * (j 1).val = (j 1).val
    rw [e1]; omega

/-- An index of the result table is in point `t`'s block iff each coordinate is in the block's range on its axis. -/
theorem mem_blk (t : Fin cfg0.N) (i : S131072x672.Idx) :
    i ∈ ((cfg0.win 5).blk t).view.set ↔ ∀ a : Fin 2, win0_5.index t a * S2048x672.size a ≤ (i a).val ∧ (i a).val < win0_5.index t a * S2048x672.size a + S2048x672.size a := by
  show i ∈ ((View.whole main_v1).slice (win0_5.rect t)).set ↔ _
  rw [View.set_slice_whole, Rect.mem_set_unit]
  exact Iff.rfl

/-- Every entry of the result table is in some point's block: row `r` is in the block of point `r / 2048`. -/
theorem cover (i : S131072x672.Idx) :
    ∃ t : Fin cfg0.N, (cfg0.win 5).flush t = true ∧ i ∈ ((cfg0.win 5).blk t).view.set := by
  have hN : cfg0.N = 64 := N_0
  have hi0 : (i 0).val < 131072 := (i 0).isLt
  have hi1 : (i 1).val < 672 := (i 1).isLt
  obtain ⟨t, ht⟩ : ∃ t : Fin cfg0.N, t.val = (i 0).val / 2048 := ⟨⟨(i 0).val / 2048, by omega⟩, rfl⟩
  obtain ⟨-, -, -, -, -, -, -, -, e0, e1⟩ := idx_facts t
  refine ⟨t, flush0_5 t, ?_⟩
  rw [mem_blk]
  intro a
  match a with
  | ⟨0, _⟩ =>
    show win0_5.index t 0 * 2048 ≤ (i 0).val ∧ (i 0).val < win0_5.index t 0 * 2048 + 2048
    rw [e0, ht]; omega
  | ⟨1, _⟩ =>
    show win0_5.index t 1 * 672 ≤ (i 1).val ∧ (i 1).val < win0_5.index t 1 * 672 + 672
    rw [e1]; omega

/-- So the result's array ends holding the result table. -/
theorem final (hblock : BlockHyp) (c : Dev nD) : (dats m 0 c).arrAt 5 cfg0.N = resultTable m c :=
  (dats m 0 c).arrAt_eq_of_cover 5 (resultTable m c) (fun t _ => flushed_eq m hblock c t) cover

end Cert.KernelSide

end
-- ==== Proof.KHost.lean ====
/-
  The two changes of layout around the pipeline.

  Before the pipeline the input, 131072 rows of 42 joints of 16 features, is re-laid as a table of 131072 rows of 672
  columns; after it the result table is re-laid the other way. Both keep every entry's row-major position: joint `n`,
  feature `d` of row `r` is column `16 n + d` of row `r` of the table, since
  `(42 r + n) · 16 + d = 672 r + (16 n + d)`. So a row of the input table, read back as 42 joints of 16 features, is
  the input's row, and re-laying the result table of a re-laid input gives the specification's result: column
  `16 n + d` is joint `(16 n + d) / 16 = n`, feature `(16 n + d) % 16 = d`.
-/
import proofs.«139112_j68693706932308_1_alg».proof.Proof.Gen.KernelIdeal.Frame
import proofs.«139112_j68693706932308_1_alg».proof.Proof.KTable
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelSide

open Cert.KernelIdeal Cert.KernelIdeal.Gen Idealize.ShloMosaic.ValueIdx

/-! ## The layouts, on any arrays -/

/-- Row `r` of the re-laid input, read as 42 joints of 16 features, is row `r` of the input. -/
theorem rowOf_shapeCast (x : S131072x42x16.Idx → EReal) (h : S131072x42x16.ShapeCasts S131072x672)
    (r : Fin 131072) (n : Fin 42) (d : Fin 16) :
    rowOf (shapeCast S131072x672 x h) r n d = x (ix3 r n d) := by
  have hn := n.isLt
  have hd := d.isLt
  unfold rowOf
  refine shapeCast_apply x h _ (ix3 r n d) ?_
  rw [Shape.rowMajor_val_three, Shape.rowMajor_val_two]
  show (r.val * 42 + n.val) * 16 + d.val = r.val * 672 + (16 * n.val + d.val)
  omega

/-- The result table of the re-laid input, re-laid back, is the specification's result. -/
theorem shapeCast_tableOut (x : S131072x42x16.Idx → EReal)
    (W1 : S8x20.Idx → EReal) (b1 : S8.Idx → EReal) (W2 : S16x8.Idx → EReal) (b2 : S16.Idx → EReal)
    (h1 : S131072x42x16.ShapeCasts S131072x672) (h2 : S131072x672.ShapeCasts S131072x42x16) :
    shapeCast S131072x42x16 (tableOut (shapeCast S131072x672 x h1) W1 b1 W2 b2) h2 = Cert.Spec.out x W1 b1 W2 b2 := by
  funext i
  obtain ⟨r, n, d, rfl⟩ : ∃ (r : Fin 131072) (n : Fin 42) (d : Fin 16), i = ix3 r n d := ⟨i 0, i 1, i 2, eq_ix3 i⟩
  have hn := n.isLt
  have hd := d.isLt
  rw [Cert.Spec.out_ix3]
  rw [shapeCast_apply _ h2 (ix3 r n d) (ix2 r (⟨16 * n.val + d.val, by omega⟩ : Fin 672)) (by
    rw [Shape.rowMajor_val_two, Shape.rowMajor_val_three]
    show r.val * 672 + (16 * n.val + d.val) = (r.val * 42 + n.val) * 16 + d.val
    omega)]
  rw [tableOut_ix2]
  have hrow : rowOf (shapeCast S131072x672 x h1) r = fun n' d' => x (ix3 r n' d') :=
    funext fun n' => funext fun d' => rowOf_shapeCast x h1 r n' d'
  rw [hrow]
  unfold Cert.Spec.outAt
  exact congr (congrArg (Cert.Spec.outRow (fun n' d' => x (ix3 r n' d')) W1 b1 W2 b2)
      (Fin.ext (by show (16 * n.val + d.val) / 16 = n.val; omega)))
    (Fin.ext (by show (16 * n.val + d.val) % 16 = d.val; omega))

/-! ## The program's two layout changes -/

variable (m : (ℓ : Loc nD τ sig) → Buf (Elt Ideal) ℓ)

/-- The input table as the pipeline finds it is the input re-laid. -/
theorem V_main_v0 (c : Dev nD) :
    (V m c main_v0 : S131072x672.Idx → EReal)
      = shapeCast S131072x672 (m ((c : Thread nD τ).loc main_arg0)) shapeCasts_S131072x42x16_S131072x672 := by
  show StableHlo.after hostOps0 (fun b => m (c, b)) (Proc.devRef .tc main_v0) = _
  after_results
  rfl

/-- The program's result is the result table's final contents re-laid. -/
theorem tail_main_v2 (c : Dev nD) :
    Pipeline.afterTail₀ cfgs (dats m) 0 (V0 m) [hostOps1] c main_v2
      = shapeCast S131072x42x16 ((dats m 0 c).arrAt 5 cfg0.N) shapeCasts_S131072x672_S131072x42x16 := by
  have e : Pipeline.withArrays (cfgs 0).spec c (V0 m c) (fun w => (dats m 0 c).arrAt w (cfgs 0).N) (Proc.devRef .tc main_v1)
      = (dats m 0 c).arrAt 5 cfg0.N :=
    Pipeline.withArrays_arr spec0 launch0.win.arr_inj c _ _ 5
  unfold Pipeline.afterTail₀
  show StableHlo.after hostOps1 _ (Proc.devRef .tc main_v2) = _
  after_results
  rw [e]
  rfl

end Cert.KernelSide

end
-- ==== Proof.KArray.lean ====
/-
  The kernel program's run, read as the specification.

  The program re-lays the input as a table, runs the pipeline over 64 blocks of 2048 rows, and re-lays the result
  table back. Given that the body turns each input block into the row function's block, the result table ends
  holding the row function of every input row, and the re-laid table is the specification's result of the five
  arguments. None of the five arguments is written: the input is read only by the first change of layout, and the
  four parameter arrays are staged and never written back.
-/
import proofs.«139112_j68693706932308_1_alg».proof.Proof.KFlush
import proofs.«139112_j68693706932308_1_alg».proof.Proof.KHost

noncomputable section

open Idealize.ShloMosaic Idealize.ShloMosaic.TcCoe Idealize.SL.Sem
open Idealize.ShloMosaic.Pipeline (Dat)

namespace Cert.KernelSide

open Cert.KernelIdeal Cert.KernelIdeal.Gen Idealize.ShloMosaic.ValueIdx

/-- The program's result is the specification's result of the arguments as launched. -/
theorem main_v2_eq (hblock : BlockHyp) (m : (ℓ : Loc nD τ sig) → Buf (Elt Ideal) ℓ) (c : Dev nD) :
    Pipeline.afterTail₀ cfgs (dats m) 0 (V0 m) [hostOps1] c main_v2
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_main_v2 m c, final m hblock c]
  show shapeCast S131072x42x16 (tableOut (V m c main_v0) (V m c main_arg1) (V m c main_arg2) (V m c main_arg3) (V m c main_arg4)) _ = _
  rw [V_main_v0 m c, V_main_arg1 m c, V_main_arg2 m c, V_main_arg3 m c, V_main_arg4 m c]
  exact shapeCast_tableOut _ _ _ _ _ _ _

/-- Every run of the program ends with the result at the specification's result of the arguments, and the arguments
    as they were. -/
theorem run
    (hblock : ∀ (c : Dev Cert.KernelIdeal.nD) (i : Cert.KernelIdeal.grid0.Coords) (arg1 : Memref Cert.KernelIdeal.sig .tc .vmem Cert.KernelIdeal.S2048x672 .f32) (harg1 : arg1.IsWhole) (arg2 : Memref _ .tc .vmem Cert.KernelIdeal.S8x20 .f32) (harg2 : arg2.IsWhole) (arg3 : Memref _ .tc .vmem Cert.KernelIdeal.S8 .f32) (harg3 : arg3.IsWhole) (arg4 : Memref _ .tc .vmem Cert.KernelIdeal.S16x8 .f32) (harg4 : arg4.IsWhole) (arg5 : Memref _ .tc .vmem Cert.KernelIdeal.S16 .f32) (harg5 : arg5.IsWhole) (arg6 : Memref _ .tc .vmem Cert.KernelIdeal.S2048x672 .f32) (harg6 : arg6.IsWhole) (arg7 : Memref _ .tc .vmem Cert.KernelIdeal.S2048x20 .f32) (harg7 : arg7.IsWhole)
          (x0 : Vec Ideal Cert.KernelIdeal.S2048x672 .f32) (x1 : Vec Ideal Cert.KernelIdeal.S8x20 .f32) (x2 : Vec Ideal Cert.KernelIdeal.S8 .f32) (x3 : Vec Ideal Cert.KernelIdeal.S16x8 .f32) (x4 : Vec Ideal Cert.KernelIdeal.S16 .f32),
          Cert.KernelIdeal.Gen.out0_A_5 (F := Ideal) c i arg1 harg1 arg2 harg2 arg3 harg3 arg4 harg4 arg5 harg5 arg6 harg6 arg7 harg7 x0 x1 x2 x3 x4 = Cert.KernelSide.tableOut x0 x1 x2 x3 x4)
      (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2)
          = Cert.Spec.out (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun _ h c =>
    ⟨((h c).2 main_v2 (Pipeline.mem_restRefs_of main_v2 (by decide) (by decide))).trans (main_v2_eq hblock m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- info: 'Cert.KernelSide.run' depends on axioms: [propext, Classical.choice, Quot.sound] -/
#guard_msgs in #print axioms run

end Cert.KernelSide

end
-- ==== Proof.RefOps.lean ====
/-
  The reference program's run. Its entry function is a straight line of 66 whole-buffer operations once the three
  outlined functions (the two Euclidean norms and the rectifier) are unfolded at their calls; every weakly fair
  execution terminates with each buffer at the fold of those operations over the launch contents, and the fold read
  at the result buffer is the composed pure term of the five arguments.
-/
import proofs.«139112_j68693706932308_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem
  Idealize.ShloMosaic.StableHlo

variable {F : FTy → Type} [FloatOps F]

/-- The entry function's 66 operations in order, the calls unfolded: each norm is four (the square, the scalar zero,
    the sum over the feature axis from it, the square root) into its call's buffers, the rectifier three (the scalar
    zero, its broadcast, the maximum). -/
abbrev ops : List (HloOp τ sig (Elt F)) :=
  [ nullary main_c (fun i => lit0 (S14.rowMajor i)),
    nullary main_c_0 (constantI S14 1 0#1),
    nullary main_c_1 (fun i => lit1 (S14.rowMajor i)),
    nullary main_c_2 (constantI S14 1 0#1),
    nullary main_c_3 (fun i => lit2 (S6.rowMajor i)),
    nullary main_c_4 (constantI S6 1 0#1),
    nullary main_c_5 (fun i => lit3 (S6.rowMajor i)),
    nullary main_c_6 (constantI S6 1 0#1),
    nullary main_c_7 (fun i => lit4 (S10.rowMajor i)),
    nullary main_c_8 (constantI S10 1 0#1),
    nullary main_c_9 (constantI S_ 32 42#32),
    unary main_c_9 main_v0 (broadcastInDim S14 ![] bcast_S_S14 : (⟨S_, .i32⟩ : BufTy).Contents (Elt F) → (⟨S14, .i32⟩ : BufTy).Contents (Elt F)),
    binary main_c main_v0 main_v1 (addi : (⟨S14, .i32⟩ : BufTy).Contents (Elt F) → (⟨S14, .i32⟩ : BufTy).Contents (Elt F) → (⟨S14, .i32⟩ : BufTy).Contents (Elt F)),
    ternary main_c_0 main_v1 main_c main_v2 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    unary main_v2 main_v3 (broadcastInDim S14x1 ![0] bcast_S14_S14x1_0 : (⟨S14, .i32⟩ : BufTy).Contents (Elt F) → (⟨S14x1, .i32⟩ : BufTy).Contents (Elt F)),
    binary main_arg0 main_v3 main_v4 ((fun x i => Host.gather gather_S131072x42x16_S14x1_S131072x14x16_02_1_n_n_1_1_131072116 x i) : (⟨S131072x42x16, .f32⟩ : BufTy).Contents (Elt F) → (⟨S14x1, .i32⟩ : BufTy).Contents (Elt F) → (⟨S131072x14x16, .f32⟩ : BufTy).Contents (Elt F)),
    nullary main_c_10 (constantI S_ 32 42#32),
    unary main_c_10 main_v5 (broadcastInDim S14 ![] bcast_S_S14 : (⟨S_, .i32⟩ : BufTy).Contents (Elt F) → (⟨S14, .i32⟩ : BufTy).Contents (Elt F)),
    binary main_c_1 main_v5 main_v6 (addi : (⟨S14, .i32⟩ : BufTy).Contents (Elt F) → (⟨S14, .i32⟩ : BufTy).Contents (Elt F) → (⟨S14, .i32⟩ : BufTy).Contents (Elt F)),
    ternary main_c_2 main_v6 main_c_1 main_v7 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    unary main_v7 main_v8 (broadcastInDim S14x1 ![0] bcast_S14_S14x1_0 : (⟨S14, .i32⟩ : BufTy).Contents (Elt F) → (⟨S14x1, .i32⟩ : BufTy).Contents (Elt F)),
    binary main_arg0 main_v8 main_v9 ((fun x i => Host.gather gather_S131072x42x16_S14x1_S131072x14x16_02_1_n_n_1_1_131072116 x i) : (⟨S131072x42x16, .f32⟩ : BufTy).Contents (Elt F) → (⟨S14x1, .i32⟩ : BufTy).Contents (Elt F) → (⟨S131072x14x16, .f32⟩ : BufTy).Contents (Elt F)),
    binary main_v4 main_v9 main_v10 (subf : (⟨S131072x14x16, .f32⟩ : BufTy).Contents (Elt F) → (⟨S131072x14x16, .f32⟩ : BufTy).Contents (Elt F) → (⟨S131072x14x16, .f32⟩ : BufTy).Contents (Elt F)),
    TRef.binary (.of main_v10) (.of main_v10) main_call0.v0 mulf,
    TRef.nullary main_call0.cst (constant S_ .f32 0x00000000#32),
    TRef.binary main_call0.v0 main_call0.cst main_call0.v1 (fun x v => Host.reduceAdd x v reducesTo_S131072x14x16_S131072x14_d2 h_S_),
    TRef.unary main_call0.v1 main_call0.v2 Host.sqrt,
    nullary main_c_11 (constantI S_ 32 42#32),
    unary main_c_11 main_v12 (broadcastInDim S6 ![] bcast_S_S6 : (⟨S_, .i32⟩ : BufTy).Contents (Elt F) → (⟨S6, .i32⟩ : BufTy).Contents (Elt F)),
    binary main_c_3 main_v12 main_v13 (addi : (⟨S6, .i32⟩ : BufTy).Contents (Elt F) → (⟨S6, .i32⟩ : BufTy).Contents (Elt F) → (⟨S6, .i32⟩ : BufTy).Contents (Elt F)),
    ternary main_c_4 main_v13 main_c_3 main_v14 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v14 main_v15 (broadcastInDim S6x1 ![0] bcast_S6_S6x1_0 : (⟨S6, .i32⟩ : BufTy).Contents (Elt F) → (⟨S6x1, .i32⟩ : BufTy).Contents (Elt F)),
    binary main_arg0 main_v15 main_v16 ((fun x i => Host.gather gather_S131072x42x16_S6x1_S131072x6x16_02_1_n_n_1_1_131072116 x i) : (⟨S131072x42x16, .f32⟩ : BufTy).Contents (Elt F) → (⟨S6x1, .i32⟩ : BufTy).Contents (Elt F) → (⟨S131072x6x16, .f32⟩ : BufTy).Contents (Elt F)),
    nullary main_c_12 (constantI S_ 32 42#32),
    unary main_c_12 main_v17 (broadcastInDim S6 ![] bcast_S_S6 : (⟨S_, .i32⟩ : BufTy).Contents (Elt F) → (⟨S6, .i32⟩ : BufTy).Contents (Elt F)),
    binary main_c_5 main_v17 main_v18 (addi : (⟨S6, .i32⟩ : BufTy).Contents (Elt F) → (⟨S6, .i32⟩ : BufTy).Contents (Elt F) → (⟨S6, .i32⟩ : BufTy).Contents (Elt F)),
    ternary main_c_6 main_v18 main_c_5 main_v19 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v19 main_v20 (broadcastInDim S6x1 ![0] bcast_S6_S6x1_0 : (⟨S6, .i32⟩ : BufTy).Contents (Elt F) → (⟨S6x1, .i32⟩ : BufTy).Contents (Elt F)),
    binary main_arg0 main_v20 main_v21 ((fun x i => Host.gather gather_S131072x42x16_S6x1_S131072x6x16_02_1_n_n_1_1_131072116 x i) : (⟨S131072x42x16, .f32⟩ : BufTy).Contents (Elt F) → (⟨S6x1, .i32⟩ : BufTy).Contents (Elt F) → (⟨S131072x6x16, .f32⟩ : BufTy).Contents (Elt F)),
    binary main_v16 main_v21 main_v22 (subf : (⟨S131072x6x16, .f32⟩ : BufTy).Contents (Elt F) → (⟨S131072x6x16, .f32⟩ : BufTy).Contents (Elt F) → (⟨S131072x6x16, .f32⟩ : BufTy).Contents (Elt F)),
    TRef.binary (.of main_v22) (.of main_v22) main_call1.v0 mulf,
    TRef.nullary main_call1.cst (constant S_ .f32 0x00000000#32),
    TRef.binary main_call1.v0 main_call1.cst main_call1.v1 (fun x v => Host.reduceAdd x v reducesTo_S131072x6x16_S131072x6_d2 h_S_),
    TRef.unary main_call1.v1 main_call1.v2 Host.sqrt,
    binary main_v11 main_v23 main_v24 ((fun a b => concatenate S131072x20 1 [⟨S131072x14, a⟩, ⟨S131072x6, b⟩] concatenates_S131072x14_S131072x6_S131072x20_d1) : (⟨S131072x14, .f32⟩ : BufTy).Contents (Elt F) → (⟨S131072x6, .f32⟩ : BufTy).Contents (Elt F) → (⟨S131072x20, .f32⟩ : BufTy).Contents (Elt F)),
    unary main_arg1 main_v25 ((transpose S20x8 [1, 0] · transposes_S8x20_S20x8_1_0) : (⟨S8x20, .f32⟩ : BufTy).Contents (Elt F) → (⟨S20x8, .f32⟩ : BufTy).Contents (Elt F)),
    binary main_v24 main_v25 main_v26 ((fun l r => Host.dotGeneral dot_S131072x20_S20x8_S131072x8_1_0_0_1_n_n none l r) : (⟨S131072x20, .f32⟩ : BufTy).Contents (Elt F) → (⟨S20x8, .f32⟩ : BufTy).Contents (Elt F) → (⟨S131072x8, .f32⟩ : BufTy).Contents (Elt F)),
    unary main_arg2 main_v27 (broadcastInDim S1x8 ![1] bcast_S8_S1x8_1 : (⟨S8, .f32⟩ : BufTy).Contents (Elt F) → (⟨S1x8, .f32⟩ : BufTy).Contents (Elt F)),
    unary main_v27 main_v28 (broadcastInDim S131072x8 ![0, 1] bcast_S1x8_S131072x8_0_1 : (⟨S1x8, .f32⟩ : BufTy).Contents (Elt F) → (⟨S131072x8, .f32⟩ : BufTy).Contents (Elt F)),
    binary main_v26 main_v28 main_v29 (addf : (⟨S131072x8, .f32⟩ : BufTy).Contents (Elt F) → (⟨S131072x8, .f32⟩ : BufTy).Contents (Elt F) → (⟨S131072x8, .f32⟩ : BufTy).Contents (Elt F)),
    TRef.nullary main_call2.cst (constant S_ .f32 0x00000000#32),
    TRef.unary main_call2.cst main_call2.v0 (broadcastInDim S131072x8 ![] bcast_S_S131072x8),
    TRef.binary (.of main_v29) main_call2.v0 main_call2.v1 maximumf,
    unary main_arg3 main_v31 ((transpose S8x16 [1, 0] · transposes_S16x8_S8x16_1_0) : (⟨S16x8, .f32⟩ : BufTy).Contents (Elt F) → (⟨S8x16, .f32⟩ : BufTy).Contents (Elt F)),
    binary main_v30 main_v31 main_v32 ((fun l r => Host.dotGeneral dot_S131072x8_S8x16_S131072x16_1_0_0_1_n_n none l r) : (⟨S131072x8, .f32⟩ : BufTy).Contents (Elt F) → (⟨S8x16, .f32⟩ : BufTy).Contents (Elt F) → (⟨S131072x16, .f32⟩ : BufTy).Contents (Elt F)),
    unary main_arg4 main_v33 (broadcastInDim S1x16 ![1] bcast_S16_S1x16_1 : (⟨S16, .f32⟩ : BufTy).Contents (Elt F) → (⟨S1x16, .f32⟩ : BufTy).Contents (Elt F)),
    unary main_v33 main_v34 (broadcastInDim S131072x16 ![0, 1] bcast_S1x16_S131072x16_0_1 : (⟨S1x16, .f32⟩ : BufTy).Contents (Elt F) → (⟨S131072x16, .f32⟩ : BufTy).Contents (Elt F)),
    binary main_v32 main_v34 main_v35 (addf : (⟨S131072x16, .f32⟩ : BufTy).Contents (Elt F) → (⟨S131072x16, .f32⟩ : BufTy).Contents (Elt F) → (⟨S131072x16, .f32⟩ : BufTy).Contents (Elt F)),
    unary main_v35 main_v36 (broadcastInDim S131072x1x16 ![0, 2] bcast_S131072x16_S131072x1x16_0_2 : (⟨S131072x16, .f32⟩ : BufTy).Contents (Elt F) → (⟨S131072x1x16, .f32⟩ : BufTy).Contents (Elt F)),
    nullary main_c_13 (constantI S_ 32 42#32),
    unary main_c_13 main_v37 (broadcastInDim S10 ![] bcast_S_S10 : (⟨S_, .i32⟩ : BufTy).Contents (Elt F) → (⟨S10, .i32⟩ : BufTy).Contents (Elt F)),
    binary main_c_7 main_v37 main_v38 (addi : (⟨S10, .i32⟩ : BufTy).Contents (Elt F) → (⟨S10, .i32⟩ : BufTy).Contents (Elt F) → (⟨S10, .i32⟩ : BufTy).Contents (Elt F)),
    ternary main_c_8 main_v38 main_c_7 main_v39 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v39 main_v40 (broadcastInDim S10x1 ![0] bcast_S10_S10x1_0 : (⟨S10, .i32⟩ : BufTy).Contents (Elt F) → (⟨S10x1, .i32⟩ : BufTy).Contents (Elt F)),
    unary main_v36 main_v41 (broadcastInDim S131072x10x16 ![0, 1, 2] bcast_S131072x1x16_S131072x10x16_0_1_2 : (⟨S131072x1x16, .f32⟩ : BufTy).Contents (Elt F) → (⟨S131072x10x16, .f32⟩ : BufTy).Contents (Elt F)),
    ternary main_arg0 main_v40 main_v41 main_v42 ((fun x i u => Host.scatterAdd scatter_S131072x42x16_S10x1_S131072x10x16_02_1_1_1 x i u) : (⟨S131072x42x16, .f32⟩ : BufTy).Contents (Elt F) → (⟨S10x1, .i32⟩ : BufTy).Contents (Elt F) → (⟨S131072x10x16, .f32⟩ : BufTy).Contents (Elt F) → (⟨S131072x42x16, .f32⟩ : BufTy).Contents (Elt F)) ]

-- sixty-six binds re-associated: the rewrite under the chain recurses once per statement
set_option maxRecDepth 2048 in
/-- The entry function is that straight line: the outlined functions' definitions unfolded at their calls, both
    sides are one chain of steps once sequencing is reassociated. -/
theorem main_eq (c : Dev nD) : main (F := F) c = seq ops := by
  simp only [main, fn_norm.body, fn_norm_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., unary_bufs_sub ..,
    binary_bufs_sub .., ternary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., binary_bufs_sub .., unary_bufs_sub .., nullary_bufs_sub .., unary_bufs_sub .., binary_bufs_sub ..,
    ternary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    binary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., unary_bufs_sub .., nullary_bufs_sub ..,
    unary_bufs_sub .., binary_bufs_sub .., ternary_bufs_sub .., unary_bufs_sub .., unary_bufs_sub .., ternary_bufs_sub ..⟩

/-- At the compiled mesh, for any float values, from any memory with zero counters: every weakly fair execution of
    the entry function terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The reference program's result as one term: the composition of its host operations, in the order the program
  runs them, over the five argument arrays. Each definition below is one stage of that composition.
-/
import proofs.«139112_j68693706932308_1_alg».proof.ReferenceIdeal
import proofs.«139112_j68693706932308_1_alg».proof.Proof.Gen.ReferenceIdeal

set_option synthInstance.maxSize 4096

noncomputable section

namespace Cert.RefSide

open Idealize.ShloMosaic Idealize.SL.Sem Cert.ReferenceIdeal
open Cert.ReferenceIdeal.Facts₀ Cert.ReferenceIdeal.Facts

variable {F : FTy → Type} [FloatOps F] [Cert.ReferenceIdeal.Facts]

/-- The index column of a table of 14 joints: the table, through `select(false, table + 42, table)`, as a 14×1 array. -/
def col14 (tbl : Fin 14 → BitVec 32) : IVec S14x1 32 :=
  broadcastInDim S14x1 ![0] bcast_S14_S14x1_0
    (select (constantI S14 1 0#1)
      (addi (fun i => tbl (S14.rowMajor i)) (broadcastInDim S14 ![] bcast_S_S14 (constantI S_ 32 42#32)))
      (fun i => tbl (S14.rowMajor i)) : IVec S14 32)

/-- The index column of a table of 6 joints. -/
def col6 (tbl : Fin 6 → BitVec 32) : IVec S6x1 32 :=
  broadcastInDim S6x1 ![0] bcast_S6_S6x1_0
    (select (constantI S6 1 0#1)
      (addi (fun i => tbl (S6.rowMajor i)) (broadcastInDim S6 ![] bcast_S_S6 (constantI S_ 32 42#32)))
      (fun i => tbl (S6.rowMajor i)) : IVec S6 32)

/-- The index column of a table of 10 joints. -/
def col10 (tbl : Fin 10 → BitVec 32) : IVec S10x1 32 :=
  broadcastInDim S10x1 ![0] bcast_S10_S10x1_0
    (select (constantI S10 1 0#1)
      (addi (fun i => tbl (S10.rowMajor i)) (broadcastInDim S10 ![] bcast_S_S10 (constantI S_ 32 42#32)))
      (fun i => tbl (S10.rowMajor i)) : IVec S10 32)

/-- The 14 joints a table names, gathered along the joint axis. -/
def gath14 (x : FVec F S131072x42x16 .f32) (tbl : Fin 14 → BitVec 32) : FVec F S131072x14x16 .f32 :=
  Host.gather gather_S131072x42x16_S14x1_S131072x14x16_02_1_n_n_1_1_131072116 x (col14 tbl)

/-- The 6 joints a table names, gathered along the joint axis. -/
def gath6 (x : FVec F S131072x42x16 .f32) (tbl : Fin 6 → BitVec 32) : FVec F S131072x6x16 .f32 :=
  Host.gather gather_S131072x42x16_S6x1_S131072x6x16_02_1_n_n_1_1_131072116 x (col6 tbl)

/-- The Euclidean norm over the feature axis, 14 joints wide. -/
def norm14 (v : FVec F S131072x14x16 .f32) : FVec F S131072x14 .f32 :=
  Host.sqrt (Host.reduceAdd (mulf v v) (constant S_ .f32 0x00000000#32) reducesTo_S131072x14x16_S131072x14_d2 h_S_)

/-- The Euclidean norm over the feature axis, 6 joints wide. -/
def norm6 (v : FVec F S131072x6x16 .f32) : FVec F S131072x6 .f32 :=
  Host.sqrt (Host.reduceAdd (mulf v v) (constant S_ .f32 0x00000000#32) reducesTo_S131072x6x16_S131072x6_d2 h_S_)

/-- The 14 interaction distances of every row. -/
def dist14 (x : FVec F S131072x42x16 .f32) : FVec F S131072x14 .f32 :=
  norm14 (subf (gath14 x lit0) (gath14 x lit1))

/-- The 6 orientation distances of every row. -/
def dist6 (x : FVec F S131072x42x16 .f32) : FVec F S131072x6 .f32 :=
  norm6 (subf (gath6 x lit2) (gath6 x lit3))

/-- The 20 distances of every row: the interaction distances, then the orientation distances. -/
def dists (x : FVec F S131072x42x16 .f32) : FVec F S131072x20 .f32 :=
  concatenate S131072x20 1 [⟨S131072x14, dist14 x⟩, ⟨S131072x6, dist6 x⟩] concatenates_S131072x14_S131072x6_S131072x20_d1

/-- The first dense layer with its bias, before the rectifier. -/
def pre1 (x : FVec F S131072x42x16 .f32) (W1 : FVec F S8x20 .f32) (b1 : FVec F S8 .f32) : FVec F S131072x8 .f32 :=
  addf (Host.dotGeneral dot_S131072x20_S20x8_S131072x8_1_0_0_1_n_n none (dists x) (transpose S20x8 [1, 0] W1 transposes_S8x20_S20x8_1_0))
    (broadcastInDim S131072x8 ![0, 1] bcast_S1x8_S131072x8_0_1 (broadcastInDim S1x8 ![1] bcast_S8_S1x8_1 b1))

/-- The hidden layer: the rectified first dense layer. -/
def hiddenV (x : FVec F S131072x42x16 .f32) (W1 : FVec F S8x20 .f32) (b1 : FVec F S8 .f32) : FVec F S131072x8 .f32 :=
  maximumf (pre1 x W1 b1) (broadcastInDim S131072x8 ![] bcast_S_S131072x8 (constant S_ .f32 0x00000000#32))

/-- The features of every row: the second dense layer with its bias. -/
def featV (x : FVec F S131072x42x16 .f32) (W1 : FVec F S8x20 .f32) (b1 : FVec F S8 .f32) (W2 : FVec F S16x8 .f32)
    (b2 : FVec F S16 .f32) : FVec F S131072x16 .f32 :=
  addf (Host.dotGeneral dot_S131072x8_S8x16_S131072x16_1_0_0_1_n_n none (hiddenV x W1 b1) (transpose S8x16 [1, 0] W2 transposes_S16x8_S8x16_1_0))
    (broadcastInDim S131072x16 ![0, 1] bcast_S1x16_S131072x16_0_1 (broadcastInDim S1x16 ![1] bcast_S16_S1x16_1 b2))

/-- The update array: every row's features, repeated for each of the ten fingertips. -/
def updV (x : FVec F S131072x42x16 .f32) (W1 : FVec F S8x20 .f32) (b1 : FVec F S8 .f32) (W2 : FVec F S16x8 .f32)
    (b2 : FVec F S16 .f32) : FVec F S131072x10x16 .f32 :=
  broadcastInDim S131072x10x16 ![0, 1, 2] bcast_S131072x1x16_S131072x10x16_0_1_2
    (broadcastInDim S131072x1x16 ![0, 2] bcast_S131072x16_S131072x1x16_0_2 (featV x W1 b1 W2 b2))

/-- The reference program's result: the update array scatter-added into the input at the fingertip joints. -/
def refOut (x : FVec F S131072x42x16 .f32) (W1 : FVec F S8x20 .f32) (b1 : FVec F S8 .f32) (W2 : FVec F S16x8 .f32)
    (b2 : FVec F S16 .f32) : FVec F S131072x42x16 .f32 :=
  Host.scatterAdd scatter_S131072x42x16_S10x1_S131072x10x16_02_1_1_1 x (col10 lit4) (updV x W1 b1 W2 b2)

end Cert.RefSide

end
-- ==== Proof.RefRead.lean ====
/-
  The reference program's fold, read at its result buffer and at its five argument buffers: the fold of the 66
  operations over any contents is, at the result, the composed term of the argument contents, and at each argument
  what was there (no operation writes an argument).
-/
import proofs.«139112_j68693706932308_1_alg».proof.Proof.RefOps
import proofs.«139112_j68693706932308_1_alg».proof.Proof.RefTerm

noncomputable section

namespace Cert.RefSide

open Cert.ReferenceIdeal Cert.ReferenceIdeal.Gen Idealize.ShloMosaic Idealize.ShloMosaic.TcCoe Idealize.SL.Sem
  Idealize.ShloMosaic.StableHlo

variable {F : FTy → Type} [FloatOps F]

attribute [local irreducible] Host.gather Host.scatterAdd Host.reduceAdd concatenate transpose broadcastInDim in
set_option maxRecDepth 8192 in
set_option maxHeartbeats 400000 in
/-- The fold at the result buffer is the composed term by computation: the fold unrolled, each operation's result
    decides whether the buffer read is the one it writes, and the typed references' casts are the identity at these
    literal references. The array operations are kept folded meanwhile: the equation never looks inside them. -/
theorem out_eq (V : Valuation τ sig (Elt F)) :
    after ops V (main_v42 : DevRef τ sig)
      = refOut (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

end Cert.RefSide

end
-- ==== Proof.LibTakeMid.lean ====
/-
  A gather that takes whole joints along the middle axis of a rank-3 array, read at an index.

  For an operand `x : [R, N, C]` and a column of start indices `idx : [K, 1]`, the gather with offset axes 0 and 2,
  the middle axis collapsed and named by the start index map, and slices `[R, 1, C]` has the result `[R, K, C]` whose
  entry (r, k, c) is `x` at (r, n, c), where n is the start index `idx (k, 0)` read as a signed integer and clamped
  into `[0, N − 1]`.
-/
import Idealize.ShloMosaic.PureOps.Ideal
import Idealize.ShloMosaic.Lib.ValueIdx

noncomputable section

namespace Cert.LibTakeMid

open Idealize.ShloMosaic Idealize.ShloMosaic.ValueIdx

variable {α : Type}

/-- Those dimension numbers for an operand `[R, N, C]`, start indices `[K, 1]` and result `[R, K, C]`. -/
abbrev takeMidDims (R N K C : Nat)
    (wf : GatherDims.WF ⟨3, ![R, N, C]⟩ ⟨2, ![K, 1]⟩ ⟨3, ![R, K, C]⟩ [0, 2] [1] [] [1] [] 1 ![R, 1, C]) :
    GatherDims ⟨3, ![R, N, C]⟩ ⟨2, ![K, 1]⟩ ⟨3, ![R, K, C]⟩ where
  offsetDims := [0, 2]
  collapsedSliceDims := [1]
  operandBatchingDims := []
  startIndicesBatchingDims := []
  startIndexMap := [1]
  indexVectorDim := 1
  sliceSizes := ![R, 1, C]
  wf := wf

/-- The gather read at (r, k, c): the operand at (r, n, c), n the start index `idx (k, 0)` read signed and clamped into
    `[0, N − 1]`. -/
theorem gather_takeMid_apply {R N K C w : Nat} (hN : 0 < N)
    (wf : GatherDims.WF ⟨3, ![R, N, C]⟩ ⟨2, ![K, 1]⟩ ⟨3, ![R, K, C]⟩ [0, 2] [1] [] [1] [] 1 ![R, 1, C])
    (x : (⟨3, ![R, N, C]⟩ : Shape).Idx → α) (idx : IVec ⟨2, ![K, 1]⟩ w) (r : Fin R) (k : Fin K) (c : Fin C) :
    Host.gather (takeMidDims R N K C wf) x idx (ix3 r k c)
      = x (ix3 r ⟨min (idx (ix2 k ⟨0, Nat.one_pos⟩)).toInt.toNat (N - 1), by omega⟩ c) := by
  unfold Host.gather
  congr 1
  funext a
  refine Fin.ext ?_
  show (takeMidDims R N K C wf).start (ix3 r k c) idx a + (takeMidDims R N K C wf).batchCoord (ix3 r k c) a
    + (takeMidDims R N K C wf).offCoord (ix3 r k c) a = _
  rw [GatherDims.batchCoord_eq_zero _ _ _ List.not_mem_nil, Nat.add_zero]
  match a with
  | ⟨0, _⟩ =>
    show (takeMidDims R N K C wf).start (ix3 r k c) idx (0 : Fin 3) + (takeMidDims R N K C wf).offCoord (ix3 r k c) (0 : Fin 3) = r.val
    have h0 : (0 : Fin 3) ∈ (takeMidDims R N K C wf).sKept :=
      (GatherDims.mem_sKept _ _).mpr ⟨(by decide : ¬(0 : Fin 3) ∈ ([1] : List (Fin 3))), List.not_mem_nil⟩
    unfold GatherDims.start GatherDims.offCoord
    rw [dif_neg (show ¬(0 : Fin 3) ∈ (takeMidDims R N K C wf).startIndexMap from (by decide : ¬(0 : Fin 3) ∈ ([1] : List (Fin 3)))), dif_pos h0, Nat.zero_add]
    rfl
  | ⟨1, _⟩ =>
    show (takeMidDims R N K C wf).start (ix3 r k c) idx (1 : Fin 3) + (takeMidDims R N K C wf).offCoord (ix3 r k c) (1 : Fin 3)
      = min (idx (ix2 k ⟨0, Nat.one_pos⟩)).toInt.toNat (N - 1)
    rw [GatherDims.offCoord_eq_zero _ _ _ (fun h => ((GatherDims.mem_sKept _ _).mp h).1 (List.mem_singleton.mpr rfl)),
      Nat.add_zero]
    unfold GatherDims.start
    rw [dif_pos (show (1 : Fin 3) ∈ (takeMidDims R N K C wf).startIndexMap from List.mem_singleton.mpr rfl)]
    have hsi : (takeMidDims R N K C wf).siIdx (ix3 r k c) ⟨List.idxOf (1 : Fin 3) (takeMidDims R N K C wf).startIndexMap,
        List.idxOf_lt_length_iff.2 (List.mem_singleton.mpr rfl)⟩ = ix2 k ⟨0, Nat.one_pos⟩ := by
      funext b; refine Fin.ext ?_
      match b with
      | ⟨0, _⟩ => rfl
      | ⟨1, _⟩ => rfl
    rw [hsi]
    rfl
  | ⟨2, _⟩ =>
    show (takeMidDims R N K C wf).start (ix3 r k c) idx (2 : Fin 3) + (takeMidDims R N K C wf).offCoord (ix3 r k c) (2 : Fin 3) = c.val
    have h2 : (2 : Fin 3) ∈ (takeMidDims R N K C wf).sKept :=
      (GatherDims.mem_sKept _ _).mpr ⟨(by decide : ¬(2 : Fin 3) ∈ ([1] : List (Fin 3))), List.not_mem_nil⟩
    unfold GatherDims.start GatherDims.offCoord
    rw [dif_neg (show ¬(2 : Fin 3) ∈ (takeMidDims R N K C wf).startIndexMap from (by decide : ¬(2 : Fin 3) ∈ ([1] : List (Fin 3)))), dif_pos h2, Nat.zero_add]
    rfl

end Cert.LibTakeMid

end
-- ==== Proof.LibRowNorm.lean ====
/-
  Two readings at an index: a vector laid out as a one-column array, and the Euclidean norm the host takes over the
  last axis of a rank-3 array (the square root of its sum of squares, the sum started from the zero word).
-/
import Idealize.ShloMosaic.PureOps.Ideal
import Idealize.ShloMosaic.PureOps.Ideal.Laws
import Idealize.ShloMosaic.Lib.ValueIdx

noncomputable section

namespace Cert.LibRowNorm

open Idealize.ShloMosaic Idealize.ShloMosaic.ValueIdx

/-- A vector `v : [K]` laid out as a column `[K, 1]`, at (k, 0), is `v k`. -/
theorem bcast_col_apply {α : Type} {K : Nat} (h : (⟨1, ![K]⟩ : Shape).BroadcastsInDim ⟨2, ![K, 1]⟩ ![0])
    (v : (⟨1, ![K]⟩ : Shape).Idx → α) (k : Fin K) :
    broadcastInDim ⟨2, ![K, 1]⟩ ![0] h v (ix2 k ⟨0, Nat.one_pos⟩) = v (ix1 k) := by
  unfold broadcastInDim
  congr 1
  funext a
  match a with
  | ⟨0, _⟩ =>
    split
    · next h1 =>
      refine Fin.ext ?_
      have : K = 1 := h1
      have := k.isLt
      show 0 = k.val
      omega
    · rfl

/-- The square root of the host's sum of squares over the last axis of `v : [R, K, C]`, from the zero word, at (r, k):
    the Euclidean norm of the row `v (r, k, ·)`. -/
theorem norm_last_apply {R K C : Nat} (h' : (⟨3, ![R, K, C]⟩ : Shape).ReducesTo [2] ⟨2, ![R, K]⟩)
    (h : (⟨3, ![R, K, C]⟩ : Shape).Reduces [2] ⟨2, ![R, K]⟩) (hu : 0 < (⟨0, ![]⟩ : Shape).numel)
    (v : FVec Ideal ⟨3, ![R, K, C]⟩ .f32) (r : Fin R) (k : Fin K) :
    Host.sqrt (Host.reduceAdd (mulf v v) (constant ⟨0, ![]⟩ .f32 0x00000000#32) h' hu) (ix2 r k)
      = Ideal.sqrt (∑ c : Fin C, v (ix3 r k c) * v (ix3 r k c)) := by
  show Ideal.sqrt (Ideal.hostReduceAdd h' (mulf v v) (Ideal.ofBits .f32 0x00000000#32) (ix2 r k)) = _
  rw [Ideal.hostReduceAdd_single h' h, Ideal.ofBits_zero_f32, zero_add]
  have hl : ∀ c : Fin C, h.lift (ix2 r k) c = ix3 r k c := fun c => funext fun a => Fin.ext (by
    match a with
    | ⟨0, _⟩ => rfl
    | ⟨1, _⟩ => rfl
    | ⟨2, _⟩ => rfl)
  refine congrArg Ideal.sqrt ?_
  show (∑ c : Fin C, mulf v v (h.lift (ix2 r k) c)) = _
  refine Finset.sum_congr rfl fun c _ => ?_
  rw [hl c]
  rfl

end Cert.LibRowNorm

end
-- ==== Proof.RefValDist.lean ====
/-
  The reference's twenty distances, read at an index: entry (r, k) of the concatenated distance array is the
  Euclidean distance of the two joints the k-th pair names, in row r of the input.
-/
import proofs.«139112_j68693706932308_1_alg».proof.Proof.RefTerm
import proofs.«139112_j68693706932308_1_alg».proof.Proof.Spec
import proofs.«139112_j68693706932308_1_alg».proof.Proof.LibTakeMid
import proofs.«139112_j68693706932308_1_alg».proof.Proof.LibRowNorm
import Idealize.ShloMosaic.Lib.Pipeline.Value

set_option synthInstance.maxSize 4096

noncomputable section

namespace Cert.RefSide

open Idealize.ShloMosaic Idealize.ShloMosaic.ValueIdx Cert.ReferenceIdeal
open Cert.ReferenceIdeal.Facts₀ Cert.ReferenceIdeal.Facts

variable [Cert.ReferenceIdeal.Facts]

/-! ## The index columns -/

theorem col14_apply (tbl : Fin 14 → BitVec 32) (k : Fin 14) : col14 tbl (ix2 k ⟨0, Nat.one_pos⟩) = tbl k := by
  unfold col14
  rw [Cert.LibRowNorm.bcast_col_apply, select_apply]
  show Scalar.select 0#1 _ _ = _
  rw [select_zero]
  exact congrArg tbl (Fin.ext (Shape.rowMajor_val_one (ix1 k)))

theorem col6_apply (tbl : Fin 6 → BitVec 32) (k : Fin 6) : col6 tbl (ix2 k ⟨0, Nat.one_pos⟩) = tbl k := by
  unfold col6
  rw [Cert.LibRowNorm.bcast_col_apply, select_apply]
  show Scalar.select 0#1 _ _ = _
  rw [select_zero]
  exact congrArg tbl (Fin.ext (Shape.rowMajor_val_one (ix1 k)))

theorem col10_apply (tbl : Fin 10 → BitVec 32) (k : Fin 10) : col10 tbl (ix2 k ⟨0, Nat.one_pos⟩) = tbl k := by
  unfold col10
  rw [Cert.LibRowNorm.bcast_col_apply, select_apply]
  show Scalar.select 0#1 _ _ = _
  rw [select_zero]
  exact congrArg tbl (Fin.ext (Shape.rowMajor_val_one (ix1 k)))

/-! ## The gathers -/

/-- A gather of 14 joints at (r, k, d): the input at the joint `n` that `tbl k`, read signed and clamped into the 42
    joints, is. -/
theorem gath14_apply {F : FTy → Type} [FloatOps F] (x : FVec F S131072x42x16 .f32) (tbl : Fin 14 → BitVec 32)
    (r : Fin 131072) (k : Fin 14) (d : Fin 16) (n : Fin 42) (hn : min (tbl k).toInt.toNat (42 - 1) = n.val) :
    gath14 x tbl (ix3 r k d) = x (ix3 r n d) := by
  unfold gath14
  refine (Cert.LibTakeMid.gather_takeMid_apply (R := 131072) (N := 42) (K := 14) (C := 16) (by decide)
    gather_S131072x42x16_S14x1_S131072x14x16_02_1_n_n_1_1_131072116_wf x (col14 tbl) r k d).trans
    (congrArg (fun m => x (ix3 r m d)) (Fin.ext ?_))
  show min (col14 tbl (ix2 k ⟨0, Nat.one_pos⟩)).toInt.toNat (42 - 1) = n.val
  rw [col14_apply]; exact hn

/-- A gather of 6 joints at (r, k, d). -/
theorem gath6_apply {F : FTy → Type} [FloatOps F] (x : FVec F S131072x42x16 .f32) (tbl : Fin 6 → BitVec 32)
    (r : Fin 131072) (k : Fin 6) (d : Fin 16) (n : Fin 42) (hn : min (tbl k).toInt.toNat (42 - 1) = n.val) :
    gath6 x tbl (ix3 r k d) = x (ix3 r n d) := by
  unfold gath6
  refine (Cert.LibTakeMid.gather_takeMid_apply (R := 131072) (N := 42) (K := 6) (C := 16) (by decide)
    gather_S131072x42x16_S6x1_S131072x6x16_02_1_n_n_1_1_131072116_wf x (col6 tbl) r k d).trans
    (congrArg (fun m => x (ix3 r m d)) (Fin.ext ?_))
  show min (col6 tbl (ix2 k ⟨0, Nat.one_pos⟩)).toInt.toNat (42 - 1) = n.val
  rw [col6_apply]; exact hn

/-! ## The literal tables are the pairs' joints -/

theorem lit0_joint : ∀ k : Fin 14, min (lit0 k).toInt.toNat (42 - 1) = (Spec.pairI (Fin.castLE (by decide) k)).val := by decide
theorem lit1_joint : ∀ k : Fin 14, min (lit1 k).toInt.toNat (42 - 1) = (Spec.pairJ (Fin.castLE (by decide) k)).val := by decide
theorem lit2_joint : ∀ k : Fin 6, min (lit2 k).toInt.toNat (42 - 1) = (Spec.pairI ⟨k.val + 14, by omega⟩).val := by decide
theorem lit3_joint : ∀ k : Fin 6, min (lit3 k).toInt.toNat (42 - 1) = (Spec.pairJ ⟨k.val + 14, by omega⟩).val := by decide

/-! ## The distances -/

/-- Interaction distance k of row r. -/
theorem dist14_apply (x : FVec Ideal S131072x42x16 .f32) (r : Fin 131072) (k : Fin 14) :
    dist14 x (ix2 r k) = Spec.dist (fun d => x (ix3 r (Spec.pairI (Fin.castLE (by decide) k)) d))
      (fun d => x (ix3 r (Spec.pairJ (Fin.castLE (by decide) k)) d)) := by
  unfold dist14 norm14
  refine (Cert.LibRowNorm.norm_last_apply (R := 131072) (K := 14) (C := 16) reducesTo_S131072x14x16_S131072x14_d2
    (by decide) h_S_ _ r k).trans ?_
  unfold Spec.dist
  refine congrArg Ideal.sqrt (Finset.sum_congr rfl fun d _ => ?_)
  rw [subf_apply, gath14_apply x lit0 r k d _ (lit0_joint k), gath14_apply x lit1 r k d _ (lit1_joint k)]

/-- Orientation distance k of row r. -/
theorem dist6_apply (x : FVec Ideal S131072x42x16 .f32) (r : Fin 131072) (k : Fin 6) :
    dist6 x (ix2 r k) = Spec.dist (fun d => x (ix3 r (Spec.pairI ⟨k.val + 14, by omega⟩) d))
      (fun d => x (ix3 r (Spec.pairJ ⟨k.val + 14, by omega⟩) d)) := by
  unfold dist6 norm6
  refine (Cert.LibRowNorm.norm_last_apply (R := 131072) (K := 6) (C := 16) reducesTo_S131072x6x16_S131072x6_d2
    (by decide) h_S_ _ r k).trans ?_
  unfold Spec.dist
  refine congrArg Ideal.sqrt (Finset.sum_congr rfl fun d _ => ?_)
  rw [subf_apply, gath6_apply x lit2 r k d _ (lit2_joint k), gath6_apply x lit3 r k d _ (lit3_joint k)]

/-- Distance k of row r, for all twenty pairs: the concatenation holds the interaction distances, then the orientation
    distances, in the pairs' order. -/
theorem dists_apply (x : FVec Ideal S131072x42x16 .f32) (r : Fin 131072) (k : Fin 20) :
    dists x (ix2 r k) = Spec.dist (fun d => x (ix3 r (Spec.pairI k) d)) (fun d => x (ix3 r (Spec.pairJ k) d)) := by
  unfold dists
  by_cases hk : k.val < 14
  · refine (concatenate_pair_apply_left (t := S131072x20) (s₁ := S131072x14) (s₂ := S131072x6) (1 : Fin 2) _ _
      concatenates_S131072x14_S131072x6_S131072x20_d1 (ix2 r k) rfl (ix2 r ⟨k.val, hk⟩) (fun b => ?_)).trans ?_
    · match b with
      | ⟨0, _⟩ => rfl
      | ⟨1, _⟩ => rfl
    · rw [dist14_apply]
      have e : Fin.castLE (by decide : 14 ≤ 20) (⟨k.val, hk⟩ : Fin 14) = k := Fin.ext rfl
      rw [e]
  · have hk2 : k.val - 14 < 6 := by have := k.isLt; omega
    refine (concatenate_pair_apply_right (t := S131072x20) (s₁ := S131072x14) (s₂ := S131072x6) (1 : Fin 2) _ _
      concatenates_S131072x14_S131072x6_S131072x20_d1 (ix2 r k) rfl rfl (ix2 r ⟨k.val - 14, hk2⟩) (fun b hb => ?_) ?_).trans ?_
    · match b with
      | ⟨0, _⟩ => rfl
      | ⟨1, _⟩ => exact absurd rfl hb
    · show k.val - 14 + 14 = k.val
      omega
    · rw [dist6_apply]
      have e : (⟨(⟨k.val - 14, hk2⟩ : Fin 6).val + 14, by omega⟩ : Fin 20) = k := Fin.ext (by show k.val - 14 + 14 = k.val; omega)
      rw [e]

end Cert.RefSide

end
-- ==== Proof.RefValDense.lean ====
/-
  The reference's two dense layers, its rectifier and the update array, read at an index. The host's dot_general over
  the transposed weights is the row-by-row sum of products with the weights as stored; a bias broadcast through a
  unit row reads the bias entry of the column; the rectifier's zero is the zero word everywhere; the update array
  repeats a row's features at every fingertip slot.
-/
import proofs.«139112_j68693706932308_1_alg».proof.Proof.RefTerm
import proofs.«139112_j68693706932308_1_alg».proof.Proof.LibDense

noncomputable section

namespace Cert.RefSide

open Idealize.ShloMosaic Idealize.ShloMosaic.ValueIdx Cert.ReferenceIdeal

/-- The first dense layer before the rectifier, at row `r`, hidden unit `j`. -/
theorem pre1_apply (x : FVec Ideal S131072x42x16 .f32) (W1 : FVec Ideal S8x20 .f32) (b1 : FVec Ideal S8 .f32)
    (r : Fin 131072) (j : Fin 8) :
    pre1 (F := Ideal) x W1 b1 (ix2 r j) = (∑ k : Fin 20, dists x (ix2 r k) * W1 (ix2 j k)) + b1 (ix1 j) := by
  unfold pre1
  refine Eq.trans (addf_apply _ _ (ix2 r j)) (congrArg₂ (· + ·) ?_ ?_)
  · refine Eq.trans (Cert.LibDense.dotGeneral_plain (M := 131072) (K := 20) (N := 8) .single (dists x) _ (ix2 r j)) ?_
    unfold Cert.LibDense.prod
    refine Finset.sum_congr rfl fun k _ => congrArg (dists x (ix2 r k) * ·) ?_
    exact transpose_apply _ W1 _ _ (ix2 j k) (fun b => by match b with | ⟨0, _⟩ => rfl | ⟨1, _⟩ => rfl)
  · refine Eq.trans (broadcastInDim_apply _ _ _ (ix2 r j) (ix2 (⟨0, Nat.one_pos⟩ : Fin 1) j)
      (fun a => by match a with | ⟨0, _⟩ => rfl | ⟨1, _⟩ => rfl)) ?_
    exact broadcastInDim_apply _ _ b1 _ (ix1 j) (fun a => by match a with | ⟨0, _⟩ => rfl)

/-- The hidden layer at row `r`, hidden unit `j`: the larger of the first dense layer and the zero word's value. -/
theorem hiddenV_apply (x : FVec Ideal S131072x42x16 .f32) (W1 : FVec Ideal S8x20 .f32) (b1 : FVec Ideal S8 .f32)
    (r : Fin 131072) (j : Fin 8) :
    hiddenV (F := Ideal) x W1 b1 (ix2 r j)
      = max ((∑ k : Fin 20, dists x (ix2 r k) * W1 (ix2 j k)) + b1 (ix1 j)) (Ideal.ofBits .f32 0x00000000#32) := by
  unfold hiddenV
  exact Eq.trans (maximumf_apply _ _ (ix2 r j)) (congrArg₂ max (pre1_apply x W1 b1 r j) rfl)

/-- The second dense layer at row `r`, feature `d`. -/
theorem featV_apply (x : FVec Ideal S131072x42x16 .f32) (W1 : FVec Ideal S8x20 .f32) (b1 : FVec Ideal S8 .f32)
    (W2 : FVec Ideal S16x8 .f32) (b2 : FVec Ideal S16 .f32) (r : Fin 131072) (d : Fin 16) :
    featV (F := Ideal) x W1 b1 W2 b2 (ix2 r d)
      = (∑ j : Fin 8, hiddenV x W1 b1 (ix2 r j) * W2 (ix2 d j)) + b2 (ix1 d) := by
  unfold featV
  refine Eq.trans (addf_apply _ _ (ix2 r d)) (congrArg₂ (· + ·) ?_ ?_)
  · refine Eq.trans (Cert.LibDense.dotGeneral_plain (M := 131072) (K := 8) (N := 16) .single (hiddenV x W1 b1) _ (ix2 r d)) ?_
    unfold Cert.LibDense.prod
    refine Finset.sum_congr rfl fun j _ => congrArg (hiddenV x W1 b1 (ix2 r j) * ·) ?_
    exact transpose_apply _ W2 _ _ (ix2 d j) (fun b => by match b with | ⟨0, _⟩ => rfl | ⟨1, _⟩ => rfl)
  · refine Eq.trans (broadcastInDim_apply _ _ _ (ix2 r d) (ix2 (⟨0, Nat.one_pos⟩ : Fin 1) d)
      (fun a => by match a with | ⟨0, _⟩ => rfl | ⟨1, _⟩ => rfl)) ?_
    exact broadcastInDim_apply _ _ b2 _ (ix1 d) (fun a => by match a with | ⟨0, _⟩ => rfl)

/-- The update array at row `r`, fingertip slot `t`, feature `d`: the row's feature `d`, whatever the slot. -/
theorem updV_apply (x : FVec Ideal S131072x42x16 .f32) (W1 : FVec Ideal S8x20 .f32) (b1 : FVec Ideal S8 .f32)
    (W2 : FVec Ideal S16x8 .f32) (b2 : FVec Ideal S16 .f32) (r : Fin 131072) (t : Fin 10) (d : Fin 16) :
    updV (F := Ideal) x W1 b1 W2 b2 (ix3 r t d) = featV x W1 b1 W2 b2 (ix2 r d) := by
  unfold updV
  refine Eq.trans (broadcastInDim_apply _ _ _ (ix3 r t d) (ix3 r (⟨0, Nat.one_pos⟩ : Fin 1) d)
    (fun a => by match a with | ⟨0, _⟩ => rfl | ⟨1, _⟩ => rfl | ⟨2, _⟩ => rfl)) ?_
  exact broadcastInDim_apply _ _ _ _ (ix2 r d) (fun a => by match a with | ⟨0, _⟩ => rfl | ⟨1, _⟩ => rfl)

end Cert.RefSide

end
-- ==== Proof.LibScatterMid.lean ====
/-
  A scatter-add that adds whole joints along the middle axis of a rank-3 array, read at an index.

  For an operand `x : [R, N, C]`, a column of scatter indices `idx : [K, 1]` and updates `upd : [R, K, C]`, the
  scatter with window axes 0 and 2, the middle axis inserted and named by the index map sends update entry (r, t, c)
  to operand entry (r, n, c), n the scatter index `idx (t, 0)` read as a signed integer — when that is inside
  `[0, N)`. When the K indices are the values of an injective `p : Fin K → Fin N`, operand entry (r, n, c) gains
  exactly the update entry (r, t, c) with `p t = n`, if there is one, and nothing otherwise.
-/
import Idealize.ShloMosaic.PureOps.Ideal
import Idealize.ShloMosaic.PureOps.Ideal.Laws
import Idealize.ShloMosaic.Lib.ValueIdx

noncomputable section

namespace Cert.LibScatterMid

open Idealize.ShloMosaic Idealize.ShloMosaic.ValueIdx

/-- Those dimension numbers for an operand `[R, N, C]`, scatter indices `[K, 1]` and updates `[R, K, C]`. -/
abbrev scatMidDims (R N K C : Nat)
    (wf : ScatterDims.WF ⟨3, ![R, N, C]⟩ ⟨2, ![K, 1]⟩ ⟨3, ![R, K, C]⟩ [0, 2] [1] [1] 1) :
    ScatterDims ⟨3, ![R, N, C]⟩ ⟨2, ![K, 1]⟩ ⟨3, ![R, K, C]⟩ where
  updateWindowDims := [0, 2]
  insertedWindowDims := [1]
  scatterDimsToOperandDims := [1]
  indexVectorDim := 1
  wf := wf

variable {R N K C w : Nat} (wf : ScatterDims.WF ⟨3, ![R, N, C]⟩ ⟨2, ![K, 1]⟩ ⟨3, ![R, K, C]⟩ [0, 2] [1] [1] 1)
  (idx : IVec ⟨2, ![K, 1]⟩ w)

theorem start0 (j : (⟨3, ![R, K, C]⟩ : Shape).Idx) : (scatMidDims R N K C wf).start j idx (0 : Fin 3) = 0 := by
  unfold ScatterDims.start
  rw [dif_neg (show ¬(0 : Fin 3) ∈ (scatMidDims R N K C wf).scatterDimsToOperandDims from
    (by decide : ¬(0 : Fin 3) ∈ ([1] : List (Fin 3))))]

theorem start2 (j : (⟨3, ![R, K, C]⟩ : Shape).Idx) : (scatMidDims R N K C wf).start j idx (2 : Fin 3) = 0 := by
  unfold ScatterDims.start
  rw [dif_neg (show ¬(2 : Fin 3) ∈ (scatMidDims R N K C wf).scatterDimsToOperandDims from
    (by decide : ¬(2 : Fin 3) ∈ ([1] : List (Fin 3))))]

theorem start1 (r : Fin R) (t : Fin K) (c : Fin C) :
    (scatMidDims R N K C wf).start (ix3 r t c) idx (1 : Fin 3) = (idx (ix2 t ⟨0, Nat.one_pos⟩)).toInt := by
  unfold ScatterDims.start
  rw [dif_pos (show (1 : Fin 3) ∈ (scatMidDims R N K C wf).scatterDimsToOperandDims from List.mem_singleton.mpr rfl)]
  have hsi : (scatMidDims R N K C wf).siIdx (ix3 r t c) ⟨List.idxOf (1 : Fin 3) (scatMidDims R N K C wf).scatterDimsToOperandDims,
      List.idxOf_lt_length_iff.2 (List.mem_singleton.mpr rfl)⟩ = ix2 t ⟨0, Nat.one_pos⟩ := by
    funext b; refine Fin.ext ?_
    match b with
    | ⟨0, _⟩ => rfl
    | ⟨1, _⟩ => rfl
  rw [hsi]

theorem mem_sKept (a : Fin 3) : a ∈ (scatMidDims R N K C wf).sKept ↔ ¬a ∈ ([1] : List (Fin 3)) := by
  simp [ScatterDims.sKept, Shape.kept, List.mem_filter, List.mem_finRange]

theorem window0 (r : Fin R) (t : Fin K) (c : Fin C) : (scatMidDims R N K C wf).window (ix3 r t c) (0 : Fin 3) = r.val := by
  unfold ScatterDims.window
  rw [dif_pos ((mem_sKept wf 0).mpr (by decide))]
  rfl

theorem window2 (r : Fin R) (t : Fin K) (c : Fin C) : (scatMidDims R N K C wf).window (ix3 r t c) (2 : Fin 3) = c.val := by
  unfold ScatterDims.window
  rw [dif_pos ((mem_sKept wf 2).mpr (by decide))]
  rfl

theorem window1 (j : (⟨3, ![R, K, C]⟩ : Shape).Idx) : (scatMidDims R N K C wf).window j (1 : Fin 3) = 0 := by
  unfold ScatterDims.window
  rw [dif_neg (fun h => (mem_sKept wf 1).mp h (List.mem_singleton.mpr rfl))]

/-- Where update entry (r, t, c) lands when scatter index `t` reads as `n`, inside the operand. -/
theorem resultIdx_mid (r : Fin R) (t : Fin K) (c : Fin C) (n : Fin N)
    (hn : (idx (ix2 t ⟨0, Nat.one_pos⟩)).toInt = (n.val : Int)) :
    (scatMidDims R N K C wf).resultIdx? (ix3 r t c) idx = some (ix3 r n c) := by
  have hall : ∀ a : Fin 3, 0 ≤ (scatMidDims R N K C wf).start (ix3 r t c) idx a + ((scatMidDims R N K C wf).window (ix3 r t c) a : Int)
      ∧ (scatMidDims R N K C wf).start (ix3 r t c) idx a + ((scatMidDims R N K C wf).window (ix3 r t c) a : Int)
        < ((⟨3, ![R, N, C]⟩ : Shape).size a : Int) := by
    intro a
    match a with
    | ⟨0, _⟩ =>
      show 0 ≤ (scatMidDims R N K C wf).start (ix3 r t c) idx (0 : Fin 3) + ((scatMidDims R N K C wf).window (ix3 r t c) (0 : Fin 3) : Int)
        ∧ (scatMidDims R N K C wf).start (ix3 r t c) idx (0 : Fin 3) + ((scatMidDims R N K C wf).window (ix3 r t c) (0 : Fin 3) : Int) < (R : Int)
      rw [start0, window0]; have := r.isLt; omega
    | ⟨1, _⟩ =>
      show 0 ≤ (scatMidDims R N K C wf).start (ix3 r t c) idx (1 : Fin 3) + ((scatMidDims R N K C wf).window (ix3 r t c) (1 : Fin 3) : Int)
        ∧ (scatMidDims R N K C wf).start (ix3 r t c) idx (1 : Fin 3) + ((scatMidDims R N K C wf).window (ix3 r t c) (1 : Fin 3) : Int) < (N : Int)
      rw [start1, window1, hn]; have := n.isLt; omega
    | ⟨2, _⟩ =>
      show 0 ≤ (scatMidDims R N K C wf).start (ix3 r t c) idx (2 : Fin 3) + ((scatMidDims R N K C wf).window (ix3 r t c) (2 : Fin 3) : Int)
        ∧ (scatMidDims R N K C wf).start (ix3 r t c) idx (2 : Fin 3) + ((scatMidDims R N K C wf).window (ix3 r t c) (2 : Fin 3) : Int) < (C : Int)
      rw [start2, window2]; have := c.isLt; omega
  unfold ScatterDims.resultIdx?
  rw [dif_pos hall]
  refine congrArg some (funext fun a => Fin.ext ?_)
  match a with
  | ⟨0, _⟩ =>
    show ((scatMidDims R N K C wf).start (ix3 r t c) idx (0 : Fin 3) + ((scatMidDims R N K C wf).window (ix3 r t c) (0 : Fin 3) : Int)).toNat = r.val
    rw [start0, window0]; omega
  | ⟨1, _⟩ =>
    show ((scatMidDims R N K C wf).start (ix3 r t c) idx (1 : Fin 3) + ((scatMidDims R N K C wf).window (ix3 r t c) (1 : Fin 3) : Int)).toNat = n.val
    rw [start1, window1, hn]; omega
  | ⟨2, _⟩ =>
    show ((scatMidDims R N K C wf).start (ix3 r t c) idx (2 : Fin 3) + ((scatMidDims R N K C wf).window (ix3 r t c) (2 : Fin 3) : Int)).toNat = c.val
    rw [start2, window2]; omega

variable (x : (⟨3, ![R, N, C]⟩ : Shape).Idx → EReal) (upd : (⟨3, ![R, K, C]⟩ : Shape).Idx → EReal)
  (p : Fin K → Fin N)

/-- The scatter-add at an entry whose joint is the `t`-th scatter index (the indices distinct): the operand's entry
    plus the one update entry (r, t, c). -/
theorem scatterAdd_mid_hit (hp : ∀ t : Fin K, (idx (ix2 t ⟨0, Nat.one_pos⟩)).toInt = ((p t).val : Int))
    (hinj : Function.Injective p) (r : Fin R) (t : Fin K) (c : Fin C) :
    Ideal.hostScatterAdd (scatMidDims R N K C wf) x idx upd (ix3 r (p t) c) = x (ix3 r (p t) c) + upd (ix3 r t c) := by
  unfold Ideal.hostScatterAdd
  refine congrArg (x (ix3 r (p t) c) + ·) ?_
  refine Finset.sum_eq_single_of_mem (ix3 r t c)
    (Finset.mem_filter.2 ⟨Finset.mem_univ _, resultIdx_mid wf idx r t c (p t) (hp t)⟩) fun b hb hne => ?_
  obtain ⟨r', t', c', rfl⟩ : ∃ (r' : Fin R) (t' : Fin K) (c' : Fin C), b = ix3 r' t' c' := ⟨b 0, b 1, b 2, eq_ix3 b⟩
  have hb' := (Finset.mem_filter.1 hb).2
  rw [resultIdx_mid wf idx r' t' c' (p t') (hp t')] at hb'
  have he := Option.some.inj hb'
  have h0 : r' = r := congrFun he (0 : Fin 3)
  have h1 : p t' = p t := congrFun he (1 : Fin 3)
  have h2 : c' = c := congrFun he (2 : Fin 3)
  exact absurd (by rw [h0, hinj h1, h2]) hne

/-- The scatter-add at an entry whose joint is no scatter index: the operand's entry. -/
theorem scatterAdd_mid_miss (hp : ∀ t : Fin K, (idx (ix2 t ⟨0, Nat.one_pos⟩)).toInt = ((p t).val : Int)) (r : Fin R) (n : Fin N) (c : Fin C) (hmiss : ∀ t : Fin K, p t ≠ n) :
    Ideal.hostScatterAdd (scatMidDims R N K C wf) x idx upd (ix3 r n c) = x (ix3 r n c) := by
  unfold Ideal.hostScatterAdd
  rw [Finset.sum_eq_zero, add_zero]
  intro b hb
  obtain ⟨r', t', c', rfl⟩ : ∃ (r' : Fin R) (t' : Fin K) (c' : Fin C), b = ix3 r' t' c' := ⟨b 0, b 1, b 2, eq_ix3 b⟩
  have hb' := (Finset.mem_filter.1 hb).2
  rw [resultIdx_mid wf idx r' t' c' (p t') (hp t')] at hb'
  exact absurd (congrFun (Option.some.inj hb') (1 : Fin 3)) (hmiss t')

end Cert.LibScatterMid

end
-- ==== Proof.RefValScatter.lean ====
/-
  The reference's scatter-add, read at an index: a fingertip joint of row r gains the row's update entry, every other
  joint is the input's.
-/
import proofs.«139112_j68693706932308_1_alg».proof.Proof.RefTerm
import proofs.«139112_j68693706932308_1_alg».proof.Proof.Spec
import proofs.«139112_j68693706932308_1_alg».proof.Proof.LibScatterMid
import proofs.«139112_j68693706932308_1_alg».proof.Proof.RefValDist

set_option synthInstance.maxSize 4096

noncomputable section

namespace Cert.RefSide

open Idealize.ShloMosaic Idealize.ShloMosaic.ValueIdx Cert.ReferenceIdeal
open Cert.ReferenceIdeal.Facts₀ Cert.ReferenceIdeal.Facts

variable [Cert.ReferenceIdeal.Facts]

/-- The fingertip table's entries, read as signed integers, are the ten fingertip joints. -/
theorem lit4_tip : ∀ t : Fin 10, (lit4 t).toInt = ((Spec.tips t).val : Int) := by decide

/-- The ten fingertip joints are distinct. -/
theorem tips_injective : Function.Injective Spec.tips := by decide

theorem col10_tip (t : Fin 10) : (col10 lit4 (ix2 t ⟨0, Nat.one_pos⟩)).toInt = ((Spec.tips t).val : Int) := by
  rw [col10_apply]; exact lit4_tip t

/-- At a fingertip joint: the input's entry plus the update's. -/
theorem refOut_tip (x : FVec Ideal S131072x42x16 .f32) (W1 : FVec Ideal S8x20 .f32) (b1 : FVec Ideal S8 .f32)
    (W2 : FVec Ideal S16x8 .f32) (b2 : FVec Ideal S16 .f32) (r : Fin 131072) (t : Fin 10) (d : Fin 16) :
    refOut x W1 b1 W2 b2 (ix3 r (Spec.tips t) d) = x (ix3 r (Spec.tips t) d) + updV x W1 b1 W2 b2 (ix3 r t d) :=
  Cert.LibScatterMid.scatterAdd_mid_hit (R := 131072) (N := 42) (K := 10) (C := 16)
    scatter_S131072x42x16_S10x1_S131072x10x16_02_1_1_1_wf (col10 lit4) x (updV x W1 b1 W2 b2) Spec.tips col10_tip
    tips_injective r t d

/-- At any other joint: the input's entry. -/
theorem refOut_other (x : FVec Ideal S131072x42x16 .f32) (W1 : FVec Ideal S8x20 .f32) (b1 : FVec Ideal S8 .f32)
    (W2 : FVec Ideal S16x8 .f32) (b2 : FVec Ideal S16 .f32) (r : Fin 131072) (n : Fin 42) (d : Fin 16)
    (hn : ¬∃ t : Fin 10, Spec.tips t = n) :
    refOut x W1 b1 W2 b2 (ix3 r n d) = x (ix3 r n d) :=
  Cert.LibScatterMid.scatterAdd_mid_miss (R := 131072) (N := 42) (K := 10) (C := 16)
    scatter_S131072x42x16_S10x1_S131072x10x16_02_1_1_1_wf (col10 lit4) x (updV x W1 b1 W2 b2) Spec.tips col10_tip
    r n d (fun t ht => hn ⟨t, ht⟩)

end Cert.RefSide

end
-- ==== Proof.RefValue.lean ====
/-
  The reference's result is the specification: index by index, a fingertip joint gains the row's features — the two
  dense layers of the row's twenty distances — and every other joint is the input's.
-/
import proofs.«139112_j68693706932308_1_alg».proof.Proof.RefTerm
import proofs.«139112_j68693706932308_1_alg».proof.Proof.Spec
import proofs.«139112_j68693706932308_1_alg».proof.Proof.RefValDist
import proofs.«139112_j68693706932308_1_alg».proof.Proof.RefValDense
import proofs.«139112_j68693706932308_1_alg».proof.Proof.RefValScatter

noncomputable section

namespace Cert.RefSide

open Idealize.ShloMosaic Idealize.ShloMosaic.ValueIdx Cert.ReferenceIdeal

/-- The features the reference computes for row r are the specification's features of that row. -/
theorem featV_eq (x : FVec Ideal S131072x42x16 .f32) (W1 : FVec Ideal S8x20 .f32) (b1 : FVec Ideal S8 .f32)
    (W2 : FVec Ideal S16x8 .f32) (b2 : FVec Ideal S16 .f32) (r : Fin 131072) (d : Fin 16) :
    featV x W1 b1 W2 b2 (ix2 r d) = Spec.feat (fun n' d' => x (ix3 r n' d')) W1 b1 W2 b2 d := by
  rw [featV_apply]
  unfold Spec.feat Spec.second
  refine congrArg (· + b2 (ix1 d)) (Finset.sum_congr rfl fun j _ => ?_)
  refine congrArg (· * W2 (ix2 d j)) ?_
  rw [hiddenV_apply]
  unfold Spec.hidden
  refine congrArg (fun s => max (s + b1 (ix1 j)) (Ideal.ofBits .f32 0x00000000#32)) (Finset.sum_congr rfl fun k _ => ?_)
  rw [dists_apply]

/-- The reference's result is the specified array. -/
theorem refOut_eq (x : FVec Ideal S131072x42x16 .f32) (W1 : FVec Ideal S8x20 .f32) (b1 : FVec Ideal S8 .f32)
    (W2 : FVec Ideal S16x8 .f32) (b2 : FVec Ideal S16 .f32) :
    refOut x W1 b1 W2 b2 = Cert.Spec.out x W1 b1 W2 b2 := by
  funext i
  obtain ⟨r, n, d, rfl⟩ : ∃ (r : Fin 131072) (n : Fin 42) (d : Fin 16), i = ix3 r n d := ⟨i 0, i 1, i 2, eq_ix3 i⟩
  rw [Spec.out_ix3]
  unfold Spec.outAt Spec.outRow
  by_cases h : ∃ t : Fin 10, Spec.tips t = n
  · rw [if_pos h]
    obtain ⟨t, rfl⟩ := h
    rw [refOut_tip, updV_apply, featV_eq]
  · rw [if_neg h, refOut_other x W1 b1 W2 b2 r n d h]

end Cert.RefSide

end
-- ==== Proof.RefRun.lean ====
/-
  The reference program's run, read at its result and its arguments: every weakly fair execution terminates with the
  result buffer at the composed term of the five argument arrays' launch contents, and the arguments unchanged. That
  term is the specification's array, index by index, which gives the run in the form the certificate's claim cites.
-/
import proofs.«139112_j68693706932308_1_alg».proof.Proof.RefRead
import proofs.«139112_j68693706932308_1_alg».proof.Proof.RefValue
import Idealize.ShloMosaic.PureOps.Ideal

noncomputable section

namespace Cert.RefSide

open Cert.ReferenceIdeal Cert.ReferenceIdeal.Gen Idealize.ShloMosaic Idealize.ShloMosaic.TcCoe Idealize.SL.Sem
  Idealize.ShloMosaic.StableHlo

/-- On the one device, at the extended reals, from any memory with zero counters: every weakly fair execution of the
    entry function terminates with the result at the composed term of the arguments' launch contents and the
    arguments unchanged. -/
theorem run_refOut (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
        = refOut (F := Ideal) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨(h c main_v42).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_main (F := Ideal) m ρ)

/-- The same run read at the arguments alone: it terminates and leaves the five argument arrays as they were. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_refOut m ρ)

/-- On the one device, at the extended reals, from any memory with zero counters: every weakly fair execution of the
    reference's entry function terminates with the result at the specification's array of the arguments' launch
    contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v42)
        = Cert.Spec.out (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans (refOut_eq _ _ _ _ _), (h c).2⟩)
    (run_refOut m ρ)

end Cert.RefSide

end
-- ==== Proof.lean ====
/-
  The kernel and its reference compute the same array.

  Per batch row: twenty Euclidean distances between fixed pairs of the row's 42 joints, a dense layer to 8 values,
  a rectifier, a dense layer to 16 features, and those features added to the ten fingertip joints
  (Proof/Spec.lean). The kernel does this on rows flattened to 672 columns, 2048 rows per grid point: it writes the
  distances column by column into a scratch table, reads the table back for the two matrix products, copies the
  input block and adds the features through ten 16-column stores (Proof/KScratch.lean, Proof/KBlock.lean); the
  blocks tile the array and the two reshapes around the call are inverse re-indexings (Proof/KArray.lean). The
  reference gathers the joints, sums squares with the host's reduction, multiplies by the transposed weights and
  scatter-adds into the fingertip rows (Proof/RefRun.lean and the modules it imports). Both are the specification
  index by index on the extended reals; only the order of finite sums and a leading zero differ, so the inputs'
  finiteness is never used. The idealization rewrote nothing, so the kernel's idealized text is its own.
-/
import proofs.«139112_j68693706932308_1_alg».proof.Defs
import proofs.«139112_j68693706932308_1_alg».proof.Proof.Gen.Kernel
import proofs.«139112_j68693706932308_1_alg».proof.Proof.Gen.Kernel.Frame
import proofs.«139112_j68693706932308_1_alg».proof.Proof.Gen.KernelIdeal
import proofs.«139112_j68693706932308_1_alg».proof.Proof.Gen.KernelIdeal.Frame
import proofs.«139112_j68693706932308_1_alg».proof.Proof.Gen.ReferenceIdeal
import proofs.«139112_j68693706932308_1_alg».proof.Proof.Gen.Pre_finite_inputs
import proofs.«139112_j68693706932308_1_alg».proof.Proof.KBlock
import proofs.«139112_j68693706932308_1_alg».proof.Proof.KArray
import proofs.«139112_j68693706932308_1_alg».proof.Proof.RefRun

noncomputable section

namespace Cert.Proof

open Idealize.ShloMosaic Idealize.ShloMosaic.TcCoe Idealize.SL.Sem

/-- The word-level kernel runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run ends with its arguments unchanged: its value run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run m ρ)

/-- Both programs end at the specification of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelSide.run Cert.KernelSide.block_eq m ρ, ?_⟩
  refine (θ_run Cert.ReferenceIdeal.defs _ _).mono (fun _ h c => ⟨?_, (h c).2⟩) (Cert.RefSide.run m' ρ')
  rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
